-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v35)) (v1 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_v60) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S4x64 : Shape := ⟨2, ![4, 64]⟩
abbrev S1600000 : Shape := ⟨1, ![1600000]⟩
abbrev S1000000 : Shape := ⟨1, ![1000000]⟩
abbrev S31x64 : Shape := ⟨2, ![31, 64]⟩
abbrev S8x64 : Shape := ⟨2, ![8, 64]⟩
abbrev S4x8 : Shape := ⟨2, ![4, 8]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S4x64 : S_.BroadcastsInDim S4x64 (![] : Fin 0 → Fin S4x64.rank)
  reducesTo_S4x64_S_d0_1 : S4x64.ReducesTo [0, 1] S_
  bcast_S_S1000000 : S_.BroadcastsInDim S1000000 (![] : Fin 0 → Fin S1000000.rank)
  reducesTo_S1000000_S_d0 : S1000000.ReducesTo [0] S_
  bcast_S_S31x64 : S_.BroadcastsInDim S31x64 (![] : Fin 0 → Fin S31x64.rank)
  reducesTo_S31x64_S_d0_1 : S31x64.ReducesTo [0, 1] S_
  bcast_S_S8x64 : S_.BroadcastsInDim S8x64 (![] : Fin 0 → Fin S8x64.rank)
  reducesTo_S8x64_S_d0_1 : S8x64.ReducesTo [0, 1] S_
  bcast_S_S4x8 : S_.BroadcastsInDim S4x8 (![] : Fin 0 → Fin S4x8.rank)
  reducesTo_S4x8_S_d0_1 : S4x8.ReducesTo [0, 1] S_

variable [Facts]

def fn_part1 {F : FTy → Type} [FloatOps F] (main_arg9 : FVec F S31x64 .f32) (main_arg10 : FVec F S8x64 .f32) (main_arg11 : FVec F S4x8 .f32) (main_v13 : IVec S_ 1) (main_v16 : IVec S1000000 1) : IVec S_ 1 :=
  let main_c_5 : IVec S_ 1 := constantI S_ 1 1#1
  let main_v17 : IVec S_ 1 := (fun x v => Host.reduce IntOp.andi x v reducesTo_S1000000_S_d0 h_S_) main_v16 main_c_5
  let main_v18 : IVec S_ 1 := andi main_v13 main_v17
  let main_v19 : FVec F S31x64 .f32 := Host.absf main_arg9
  let main_cst_6 : FVec F S_ .f32 := constant S_ .f32 0x7F800000#32
  let main_v20 : FVec F S31x64 .f32 := broadcastInDim S31x64 ![] bcast_S_S31x64 main_cst_6
  let main_v21 : IVec S31x64 1 := cmpf .olt main_v19 main_v20
  let main_c_7 : IVec S_ 1 := constantI S_ 1 1#1
  let main_v22 : IVec S_ 1 := (fun x v => Host.reduce IntOp.andi x v reducesTo_S31x64_S_d0_1 h_S_) main_v21 main_c_7
  let main_v23 : IVec S_ 1 := andi main_v18 main_v22
  let main_v24 : FVec F S8x64 .f32 := Host.absf main_arg10
  let main_cst_8 : FVec F S_ .f32 := constant S_ .f32 0x7F800000#32
  let main_v25 : FVec F S8x64 .f32 := broadcastInDim S8x64 ![] bcast_S_S8x64 main_cst_8
  let main_v26 : IVec S8x64 1 := cmpf .olt main_v24 main_v25
  let main_c_9 : IVec S_ 1 := constantI S_ 1 1#1
  let main_v27 : IVec S_ 1 := (fun x v => Host.reduce IntOp.andi x v reducesTo_S8x64_S_d0_1 h_S_) main_v26 main_c_9
  let main_v28 : IVec S_ 1 := andi main_v23 main_v27
  let main_v29 : FVec F S4x8 .f32 := Host.absf main_arg11
  let main_cst_10 : FVec F S_ .f32 := constant S_ .f32 0x7F800000#32
  let main_v30 : FVec F S4x8 .f32 := broadcastInDim S4x8 ![] bcast_S_S4x8 main_cst_10
  let main_v31 : IVec S4x8 1 := cmpf .olt main_v29 main_v30
  let main_c_11 : IVec S_ 1 := constantI S_ 1 1#1
  let main_v32 : IVec S_ 1 := (fun x v => Host.reduce IntOp.andi x v reducesTo_S4x8_S_d0_1 h_S_) main_v31 main_c_11
  let main_v33 : IVec S_ 1 := andi main_v28 main_v32
  main_v33

def fn {F : FTy → Type} [FloatOps F] (main_arg0 : FVec F S100000x64 .f32) (main_arg1 : FVec F S50000x64 .f32) (main_arg2 : FVec F S4x64 .f32) (main_arg3 : IVec S1600000 32) (main_arg4 : IVec S1600000 32) (main_arg5 : IVec S1600000 32) (main_arg6 : IVec S1000000 32) (main_arg7 : IVec S1000000 32) (main_arg8 : FVec F S1000000 .f32) (main_arg9 : FVec F S31x64 .f32) (main_arg10 : FVec F S8x64 .f32) (main_arg11 : FVec F S4x8 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S4x64 .f32 := Host.absf main_arg2
  let main_cst_2 : FVec F S_ .f32 := constant S_ .f32 0x7F800000#32
  let main_v10 : FVec F S4x64 .f32 := broadcastInDim S4x64 ![] bcast_S_S4x64 main_cst_2
  let main_v11 : IVec S4x64 1 := cmpf .olt main_v9 main_v10
  let main_c_3 : IVec S_ 1 := constantI S_ 1 1#1
  let main_v12 : IVec S_ 1 := (fun x v => Host.reduce IntOp.andi x v reducesTo_S4x64_S_d0_1 h_S_) main_v11 main_c_3
  let main_v13 : IVec S_ 1 := andi main_v8 main_v12
  let main_v14 : FVec F S1000000 .f32 := Host.absf main_arg8
  let main_cst_4 : FVec F S_ .f32 := constant S_ .f32 0x7F800000#32
  let main_v15 : FVec F S1000000 .f32 := broadcastInDim S1000000 ![] bcast_S_S1000000 main_cst_4
  let main_v16 : IVec S1000000 1 := cmpf .olt main_v14 main_v15
  fn_part1 (F := F) main_arg9 main_arg10 main_arg11 main_v13 main_v16
-- ==== Kernel.lean ====
abbrev S100000x64 : Shape := ⟨2, ![100000, 64]⟩
abbrev S50000x64 : Shape := ⟨2, ![50000, 64]⟩
abbrev S4x64 : Shape := ⟨2, ![4, 64]⟩
abbrev S1600000 : Shape := ⟨1, ![1600000]⟩
abbrev S1000000 : Shape := ⟨1, ![1000000]⟩
abbrev S31x64 : Shape := ⟨2, ![31, 64]⟩
abbrev S8x64 : Shape := ⟨2, ![8, 64]⟩
abbrev S4x8 : Shape := ⟨2, ![4, 8]⟩
abbrev S_ : Shape := ⟨0, ![]⟩
abbrev S1600000x1 : Shape := ⟨2, ![1600000, 1]⟩
abbrev S1600000x64 : Shape := ⟨2, ![1600000, 64]⟩
abbrev S8000x64 : Shape := ⟨2, ![8000, 64]⟩
abbrev S8000 : Shape := ⟨1, ![8000]⟩
abbrev S8000x1 : Shape := ⟨2, ![8000, 1]⟩
abbrev S100000 : Shape := ⟨1, ![100000]⟩
abbrev S100000x1 : Shape := ⟨2, ![100000, 1]⟩
abbrev S1000000x1 : Shape := ⟨2, ![1000000, 1]⟩
abbrev S1000000x64 : Shape := ⟨2, ![1000000, 64]⟩
abbrev S4 : Shape := ⟨1, ![4]⟩
abbrev S4x1 : Shape := ⟨2, ![4, 1]⟩
abbrev S5000x64 : Shape := ⟨2, ![5000, 64]⟩
abbrev S5000x4 : Shape := ⟨2, ![5000, 4]⟩
abbrev S5000 : Shape := ⟨1, ![5000]⟩
abbrev S5000x1 : Shape := ⟨2, ![5000, 1]⟩

abbrev nBuf : Space → Nat
  | .hbm => 90
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S4x64, .f32⟩
  | .hbm, ⟨3, _⟩ => ⟨S1600000, .i32⟩
  | .hbm, ⟨4, _⟩ => ⟨S1600000, .i32⟩
  | .hbm, ⟨5, _⟩ => ⟨S1600000, .i32⟩
  | .hbm, ⟨6, _⟩ => ⟨S1000000, .i32⟩
  | .hbm, ⟨7, _⟩ => ⟨S1000000, .i32⟩
  | .hbm, ⟨8, _⟩ => ⟨S1000000, .f32⟩
  | .hbm, ⟨9, _⟩ => ⟨S31x64, .f32⟩
  | .hbm, ⟨10, _⟩ => ⟨S8x64, .f32⟩
  | .hbm, ⟨11, _⟩ => ⟨S4x8, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x64, .f32⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x64, .f32⟩
  | .hbm, ⟨42, _⟩ => ⟨S1600000x64, .f32⟩
  | .hbm, ⟨43, _⟩ => ⟨S_, .f32⟩
  | .hbm, ⟨44, _⟩ => ⟨S100000x64, .f32⟩
  | .hbm, ⟨45, _⟩ => ⟨S1600000x1, .i32⟩
  | .hbm, ⟨46, _⟩ => ⟨S100000x64, .f32⟩
  | .hbm, ⟨47, _⟩ => ⟨S_, .f32⟩
  | .hbm, ⟨48, _⟩ => ⟨S1600000, .f32⟩
  | .hbm, ⟨49, _⟩ => ⟨S_, .f32⟩
  | .hbm, ⟨50, _⟩ => ⟨S100000, .f32⟩
  | .hbm, ⟨51, _⟩ => ⟨S1600000x1, .i32⟩
  | .hbm, ⟨52, _⟩ => ⟨S100000, .f32⟩
  | .hbm, ⟨53, _⟩ => ⟨S_, .f32⟩
  | .hbm, ⟨54, _⟩ => ⟨S100000, .f32⟩
  | .hbm, ⟨55, _⟩ => ⟨S100000, .f32⟩
  | .hbm, ⟨56, _⟩ => ⟨S100000x1, .f32⟩
  | .hbm, ⟨57, _⟩ => ⟨S100000x64, .f32⟩
  | .hbm, ⟨58, _⟩ => ⟨S100000x64, .f32⟩
  | .hbm, ⟨59, _⟩ => ⟨S_, .i32⟩
  | .hbm, ⟨60, _⟩ => ⟨S1000000, .i32⟩
  | .hbm, ⟨61, _⟩ => ⟨S1000000, .i1⟩
  | .hbm, ⟨62, _⟩ => ⟨S_, .i32⟩
  | .hbm, ⟨63, _⟩ => ⟨S1000000, .i32⟩
  | .hbm, ⟨64, _⟩ => ⟨S1000000, .i32⟩
  | .hbm, ⟨65, _⟩ => ⟨S1000000, .i32⟩
  | .hbm, ⟨66, _⟩ => ⟨S1000000x1, .i32⟩
  | .hbm, ⟨67, _⟩ => ⟨S1000000x64, .f32⟩
  | .hbm, ⟨68, _⟩ => ⟨S1000000x1, .f32⟩
  | .hbm, ⟨69, _⟩ => ⟨S1000000x64, .f32⟩
  | .hbm, ⟨70, _⟩ => ⟨S_, .f32⟩
  | .hbm, ⟨71, _⟩ => ⟨S50000x64, .f32⟩
  | .hbm, ⟨72, _⟩ => ⟨S1000000x1, .i32⟩
  | .hbm, ⟨73, _⟩ => ⟨S50000x64, .f32⟩
  | .hbm, ⟨74, _⟩ => ⟨S_, .f32⟩
  | .hbm, ⟨75, _⟩ => ⟨S4, .f32⟩
  | .hbm, ⟨76, _⟩ => ⟨S_, .f32⟩
  | .hbm, ⟨77, _⟩ => ⟨S4, .f32⟩
  | .hbm, ⟨78, _⟩ => ⟨S4, .f32⟩
  | .hbm, ⟨79, _⟩ => ⟨S4x1, .f32⟩
  | .hbm, ⟨80, _⟩ => ⟨S4x8, .f32⟩
  | .hbm, ⟨81, _⟩ => ⟨S4x8, .f32⟩
  | .hbm, ⟨82, _⟩ => ⟨S4x8, .f32⟩
  | .hbm, ⟨83, _⟩ => ⟨S_, .f32⟩
  | .hbm, ⟨84, _⟩ => ⟨S4, .f32⟩
  | .hbm, ⟨85, _⟩ => ⟨S4x1, .f32⟩
  | .hbm, ⟨86, _⟩ => ⟨S4x8, .f32⟩
  | .hbm, ⟨87, _⟩ => ⟨S4x8, .f32⟩
  | .hbm, ⟨88, _⟩ => ⟨S4x64, .f32⟩
  | .hbm, ⟨89, _⟩ => ⟨S50000x64, .f32⟩
  | .local _ .vmem, ⟨0, _⟩ => ⟨S8000x64, .f32⟩
  | .local _ .vmem, ⟨1, _⟩ => ⟨S8000x64, .f32⟩
  | .local _ .vmem, ⟨2, _⟩ => ⟨S8000x64, .f32⟩
  | .local _ .vmem, ⟨3, _⟩ => ⟨S8000x64, .f32⟩
  | .local _ .vmem, ⟨4, _⟩ => ⟨S8000x64, .f32⟩
  | .local _ .vmem, ⟨5, _⟩ => ⟨S8000x64, .f32⟩
  | .local _ .vmem, ⟨6, _⟩ => ⟨S8000x64, .f32⟩
  | .local _ .vmem, ⟨7, _⟩ => ⟨S8000x64, .f32⟩
  | .local _ .vmem, ⟨8, _⟩ => ⟨S8000x64, .f32⟩
  | .local _ .vmem, ⟨9, _⟩ => ⟨S8000x64, .f32⟩
  | .local _ .vmem, ⟨10, _⟩ => ⟨S8000x1, .f32⟩
  | .local _ .vmem, ⟨11, _⟩ => ⟨S8000x1, .f32⟩
  | .local _ .vmem, ⟨12, _⟩ => ⟨S8000x64, .f32⟩
  | .local _ .vmem, ⟨13, _⟩ => ⟨S8000x64, .f32⟩
  | .local _ .vmem, ⟨14, _⟩ => ⟨S5000x64, .f32⟩
  | .local _ .vmem, ⟨15, _⟩ => ⟨S5000x64, .f32⟩
  | .local _ .vmem, ⟨16, _⟩ => ⟨S4x64, .f32⟩
  | .local _ .vmem, ⟨17, _⟩ => ⟨S4x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_v14 : Ref sig .tc := ⟨.hbm, 31, rfl⟩
abbrev main_v15 : Ref sig .tc := ⟨.hbm, 32, rfl⟩
abbrev main_c_4 : Ref sig .tc := ⟨.hbm, 33, rfl⟩
abbrev main_v16 : Ref sig .tc := ⟨.hbm, 34, rfl⟩
abbrev main_v17 : Ref sig .tc := ⟨.hbm, 35, rfl⟩
abbrev main_c_5 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_6 : Ref sig .tc := ⟨.hbm, 47, rfl⟩
abbrev main_v27 : Ref sig .tc := ⟨.hbm, 48, rfl⟩
abbrev main_cst_7 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_8 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_9 : Ref sig .tc := ⟨.hbm, 59, rfl⟩
abbrev main_v36 : Ref sig .tc := ⟨.hbm, 60, rfl⟩
abbrev main_v37 : Ref sig .tc := ⟨.hbm, 61, rfl⟩
abbrev main_c_10 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_11 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_12 : Ref sig .tc := ⟨.hbm, 74, rfl⟩
abbrev main_v48 : Ref sig .tc := ⟨.hbm, 75, rfl⟩
abbrev main_cst_13 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_14 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc2_sem4_0 : DmaSem sig := 20
abbrev cc2_sem4_1 : DmaSem sig := 21

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S4x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  reduces_S8000x64_S8000 : S8000x64.Reduces [1] S8000
  shapeCasts_S8000_S8000x1 : S8000.ShapeCasts S8000x1
  broadcasts_S8000x1_S8000x64 : S8000x1.Broadcasts S8000x64
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  shapeCasts_S1000000_S1000000x1 : S1000000.ShapeCasts S1000000x1
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  bcast_S_S50000x64 : S_.BroadcastsInDim S50000x64 (![] : Fin 0 → Fin S50000x64.rank)
  reducesTo_S4x8_S4_d1 : S4x8.ReducesTo [1] S4
  h_S_ : 0 < S_.numel
  bcast_S_S4 : S_.BroadcastsInDim S4 (![] : Fin 0 → Fin S4.rank)
  bcast_S4_S4x1_0 : S4.BroadcastsInDim S4x1 (![0] : Fin 1 → Fin S4x1.rank)
  bcast_S4x1_S4x8_0_1 : S4x1.BroadcastsInDim S4x8 (![0, 1] : Fin 2 → Fin S4x8.rank)
  inb_S5000x64_S5000x64_0_0 : ∀ a, (![0, 0] : Fin 2 → Nat) a + S5000x64.size a ≤ S5000x64.size a
  h_S5000x64 : 0 < S5000x64.numel
  inb_S4x64_S4x64_0_0 : ∀ a, (![0, 0] : Fin 2 → Nat) a + S4x64.size a ≤ S4x64.size a
  h_S4x64 : 0 < S4x64.numel
  shapeCasts_S4x64_S4x64 : S4x64.ShapeCasts S4x64
  reduces_S5000x4_S5000 : S5000x4.Reduces [1] S5000
  shapeCasts_S5000_S5000x1 : S5000.ShapeCasts S5000x1
  broadcasts_S5000x1_S5000x4 : S5000x1.Broadcasts S5000x4
  shapeCasts_S5000x64_S5000x64 : S5000x64.ShapeCasts S5000x64
  gather_S100000x64_S1600000x1_S1600000x64_1_0_n_n_0_1_164_wf : GatherDims.WF S100000x64 S1600000x1 S1600000x64 [1] [0] [] [0] [] 1 ![1, 64]
  gather_S31x64_S1600000x1_S1600000x64_1_0_n_n_0_1_164_wf : GatherDims.WF S31x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  gather_S100000x64_S1000000x1_S1000000x64_1_0_n_n_0_1_164_wf : GatherDims.WF S100000x64 S1000000x1 S1000000x64 [1] [0] [] [0] [] 1 ![1, 64]
  scatter_S50000x64_S1000000x1_S1000000x64_1_0_0_1_wf : ScatterDims.WF S50000x64 S1000000x1 S1000000x64 [1] [0] [0] 1
  dot_S4x8_S8x64_S4x64_1_0_0_1_n_n_wf : DotDims.WF S4x8 S8x64 S4x64 [1] [0] [0] [1] [] []
  dot_S5000x64_S4x64_S5000x4_1_1_0_0_n_n_wf : DotDims.WF S5000x64 S4x64 S5000x4 [1] [1] [0] [0] [] []
  dot_S5000x4_S4x64_S5000x64_1_0_0_1_n_n_wf : DotDims.WF S5000x4 S4x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S1600000x64.size a
  hwx0_0 : ∀ i : grid0.Coords, EltTy.bits .f32 = 32 ∨ (Rect.block (s := S1600000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S1600000x64.size a
  hwx0_1 : ∀ i : grid0.Coords, EltTy.bits .f32 = 32 ∨ (Rect.block (s := S1600000x64) S8000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x64.size a ≤ S1600000x64.size a
  hwx0_2 : ∀ i : grid0.Coords, EltTy.bits .f32 = 32 ∨ (Rect.block (s := S1600000x64) S8000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x64.size a ≤ S1600000x64.size a
  hwx0_3 : ∀ i : grid0.Coords, EltTy.bits .f32 = 32 ∨ (Rect.block (s := S1600000x64) S8000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S1000000x64.size a
  hwx1_0 : ∀ i : grid1.Coords, EltTy.bits .f32 = 32 ∨ (Rect.block (s := S1000000x64) S8000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x1.size a ≤ S1000000x1.size a
  hwx1_1 : ∀ i : grid1.Coords, EltTy.bits .f32 = 32 ∨ (Rect.block (s := S1000000x1) S8000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x64.size a ≤ S1000000x64.size a
  hwx1_2 : ∀ i : grid1.Coords, EltTy.bits .f32 = 32 ∨ (Rect.block (s := S1000000x64) S8000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4x64.size a ≤ S4x64.size a
  hwx2_1 : ∀ i : grid2.Coords, EltTy.bits .f32 = 32 ∨ (Rect.block (s := S4x64) S4x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S4x64.size a ≤ S4x64.size a
  hwx2_2 : ∀ i : grid2.Coords, EltTy.bits .f32 = 32 ∨ (Rect.block (s := S4x64) S4x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S50000x64.size a
  hwx2_4 : ∀ i : grid2.Coords, EltTy.bits .f32 = 32 ∨ (Rect.block (s := S50000x64) S5000x64.size (cc2_transform_4 i) (hinb2_4 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def gather_S31x64_S1600000x1_S1600000x64_1_0_n_n_0_1_164 : GatherDims S31x64 S1600000x1 S1600000x64 where
  offsetDims := [1]
  collapsedSliceDims := [0]
  operandBatchingDims := []
  startIndicesBatchingDims := []
  startIndexMap := [0]
  indexVectorDim := 1
  sliceSizes := ![1, 64]
  wf := gather_S31x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf
def dot_S4x8_S8x64_S4x64_1_0_0_1_n_n : DotDims S4x8 S8x64 S4x64 where
  lhsContracting := [1]
  rhsContracting := [0]
  lhsNonContracting := [0]
  rhsNonContracting := [1]
  lhsBatch := []
  rhsBatch := []
  wf := dot_S4x8_S8x64_S4x64_1_0_0_1_n_n_wf
def dot_S5000x64_S4x64_S5000x4_1_1_0_0_n_n : DotDims S5000x64 S4x64 S5000x4 where
  lhsContracting := [1]
  rhsContracting := [1]
  lhsNonContracting := [0]
  rhsNonContracting := [0]
  lhsBatch := []
  rhsBatch := []
  wf := dot_S5000x64_S4x64_S5000x4_1_1_0_0_n_n_wf
def dot_S5000x4_S4x64_S5000x64_1_0_0_1_n_n : DotDims S5000x4 S4x64 S5000x64 where
  lhsContracting := [1]
  rhsContracting := [0]
  lhsNonContracting := [0]
  rhsNonContracting := [1]
  lhsBatch := []
  rhsBatch := []
  wf := dot_S5000x4_S4x64_S5000x64_1_0_0_1_n_n_wf

abbrev win0_0 : Pipeline.Window sig grid0 :=
  Pipeline.Window.ofSpec (Memref.whole main_v6) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S8000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S8000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v42) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S8000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S8000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg1) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S4x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v59) S4x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v47) S5000x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v60) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x64 : Shape := ⟨2, ![100000, 64]⟩
abbrev S50000x64 : Shape := ⟨2, ![50000, 64]⟩
abbrev S4x64 : Shape := ⟨2, ![4, 64]⟩
abbrev S1600000 : Shape := ⟨1, ![1600000]⟩
abbrev S1000000 : Shape := ⟨1, ![1000000]⟩
abbrev S31x64 : Shape := ⟨2, ![31, 64]⟩
abbrev S8x64 : Shape := ⟨2, ![8, 64]⟩
abbrev S4x8 : Shape := ⟨2, ![4, 8]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S64x4 : Shape := ⟨2, ![64, 4]⟩
abbrev S50000x4 : Shape := ⟨2, ![50000, 4]⟩
abbrev S50000 : Shape := ⟨1, ![50000]⟩
abbrev S50000x1 : Shape := ⟨2, ![50000, 1]⟩
abbrev S50000x4x1 : Shape := ⟨3, ![50000, 4, 1]⟩
abbrev S1000000x1 : Shape := ⟨2, ![1000000, 1]⟩
abbrev S1000000x64 : Shape := ⟨2, ![1000000, 64]⟩
abbrev S4 : Shape := ⟨1, ![4]⟩
abbrev S4x1 : Shape := ⟨2, ![4, 1]⟩
abbrev S1x4x64 : Shape := ⟨3, ![1, 4, 64]⟩
abbrev S50000x4x64 : Shape := ⟨3, ![50000, 4, 64]⟩

abbrev nBuf : Space → Nat
  | .hbm => 129
  | .vmem => 0
  | .smem => 0
  | _ => 0

abbrev hbmTy0_0 (i : Nat) : BufTy := match i % 128 with
  | 0 => ⟨S100000x64, .f32⟩
  | 1 => ⟨S50000x64, .f32⟩
  | 2 => ⟨S4x64, .f32⟩
  | 3 => ⟨S1600000, .i32⟩
  | 4 => ⟨S1600000, .i32⟩
  | 5 => ⟨S1600000, .i32⟩
  | 6 => ⟨S1000000, .i32⟩
  | 7 => ⟨S1000000, .i32⟩
  | 8 => ⟨S1000000, .f32⟩
  | 9 => ⟨S31x64, .f32⟩
  | 10 => ⟨S8x64, .f32⟩
  | 11 => ⟨S4x8, .f32⟩
  | 12 => ⟨S_, .i32⟩
  | 13 => ⟨S1600000, .i32⟩
  | 14 => ⟨S1600000, .i32⟩
  | 15 => ⟨S_, .i32⟩
  | 16 => ⟨S1600000, .i32⟩
  | 17 => ⟨S1600000, .i1⟩
  | 18 => ⟨S_, .i32⟩
  | 19 => ⟨S1600000, .i32⟩
  | 20 => ⟨S1600000, .i32⟩
  | 21 => ⟨S1600000, .i32⟩
  | 22 => ⟨S1600000x1, .i32⟩
  | 23 => ⟨S1600000x64, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000x64, .f32⟩
  | 33 => ⟨S1600000x64, .f32⟩
  | 34 => ⟨S_, .f32⟩
  | 35 => ⟨S1600000, .f32⟩
  | 36 => ⟨S1600000, .f32⟩
  | 37 => ⟨S1600000, .f32⟩
  | 38 => ⟨S_, .f32⟩
  | 39 => ⟨S1600000, .f32⟩
  | 40 => ⟨S1600000, .f32⟩
  | 41 => ⟨S_, .f32⟩
  | 42 => ⟨S1600000, .f32⟩
  | 43 => ⟨S1600000, .f32⟩
  | 44 => ⟨S1600000x1, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000x64, .f32⟩
  | 54 => ⟨S1600000x64, .f32⟩
  | 55 => ⟨S1600000x64, .f32⟩
  | 56 => ⟨S1600000x64, .f32⟩
  | 57 => ⟨S_, .f32⟩
  | 58 => ⟨S100000x64, .f32⟩
  | 59 => ⟨S1600000x1, .i32⟩
  | 60 => ⟨S100000x64, .f32⟩
  | 61 => ⟨S_, .f32⟩
  | 62 => ⟨S1600000, .f32⟩
  | 63 => ⟨S_, .f32⟩
  | 64 => ⟨S100000, .f32⟩
  | 65 => ⟨S1600000x1, .i32⟩
  | 66 => ⟨S100000, .f32⟩
  | 67 => ⟨S_, .f32⟩
  | 68 => ⟨S100000, .f32⟩
  | 69 => ⟨S100000, .f32⟩
  | 70 => ⟨S100000x1, .f32⟩
  | 71 => ⟨S100000x64, .f32⟩
  | 72 => ⟨S100000x64, .f32⟩
  | 73 => ⟨S64x4, .f32⟩
  | 74 => ⟨S50000x4, .f32⟩
  | 75 => ⟨S_, .f32⟩
  | 76 => ⟨S50000, .f32⟩
  | 77 => ⟨S_, .f32⟩
  | 78 => ⟨S50000, .f32⟩
  | 79 => ⟨S50000, .f32⟩
  | 80 => ⟨S50000x1, .f32⟩
  | 81 => ⟨S50000x4, .f32⟩
  | 82 => ⟨S50000x4, .f32⟩
  | 83 => ⟨S50000x4, .f32⟩
  | 84 => ⟨S_, .f32⟩
  | 85 => ⟨S50000, .f32⟩
  | 86 => ⟨S50000x1, .f32⟩
  | 87 => ⟨S50000x4, .f32⟩
  | 88 => ⟨S50000x4, .f32⟩
  | 89 => ⟨S50000x4x1, .f32⟩
  | 90 => ⟨S1000000x1, .f32⟩
  | 91 => ⟨S_, .i32⟩
  | 92 => ⟨S1000000, .i32⟩
  | 93 => ⟨S1000000, .i1⟩
  | 94 => ⟨S_, .i32⟩
  | 95 => ⟨S1000000, .i32⟩
  | 96 => ⟨S1000000, .i32⟩
  | 97 => ⟨S1000000, .i32⟩
  | 98 => ⟨S1000000x1, .i32⟩
  | 99 => ⟨S1000000x64, .f32⟩
  | 100 => ⟨S1000000x64, .f32⟩
  | 101 => ⟨S1000000x64, .f32⟩
  | 102 => ⟨S_, .f32⟩
  | 103 => ⟨S50000x64, .f32⟩
  | 104 => ⟨S1000000x1, .i32⟩
  | 105 => ⟨S50000x64, .f32⟩
  | 106 => ⟨S_, .f32⟩
  | 107 => ⟨S4, .f32⟩
  | 108 => ⟨S_, .f32⟩
  | 109 => ⟨S4, .f32⟩
  | 110 => ⟨S4, .f32⟩
  | 111 => ⟨S4x1, .f32⟩
  | 112 => ⟨S4x8, .f32⟩
  | 113 => ⟨S4x8, .f32⟩
  | 114 => ⟨S4x8, .f32⟩
  | 115 => ⟨S_, .f32⟩
  | 116 => ⟨S4, .f32⟩
  | 117 => ⟨S4x1, .f32⟩
  | 118 => ⟨S4x8, .f32⟩
  | 119 => ⟨S4x8, .f32⟩
  | 120 => ⟨S4x64, .f32⟩
  | 121 => ⟨S1x4x64, .f32⟩
  | 122 => ⟨S50000x4x64, .f32⟩
  | 123 => ⟨S50000x4x64, .f32⟩
  | 124 => ⟨S50000x4x64, .f32⟩
  | 125 => ⟨S_, .f32⟩
  | 126 => ⟨S50000x64, .f32⟩
  | 127 => ⟨S50000x64, .f32⟩
  | _ => ⟨S100000x64, .f32⟩

abbrev hbmTy0_1 (i : Nat) : BufTy := match i % 128 with
  | 0 => ⟨S50000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_c_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_c_3 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_cst_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_6 : Ref sig .tc := ⟨.hbm, 45, rfl⟩
abbrev main_v25 : Ref sig .tc := ⟨.hbm, 46, rfl⟩
abbrev main_v26 : Ref sig .tc := ⟨.hbm, 47, rfl⟩
abbrev main_c_7 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_9 : Ref sig .tc := ⟨.hbm, 61, rfl⟩
abbrev main_v38 : Ref sig .tc := ⟨.hbm, 62, rfl⟩
abbrev main_cst_10 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_11 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_12 : Ref sig .tc := ⟨.hbm, 75, rfl⟩
abbrev main_v49 : Ref sig .tc := ⟨.hbm, 76, rfl⟩
abbrev main_cst_13 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_14 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_c_15 : Ref sig .tc := ⟨.hbm, 91, rfl⟩
abbrev main_v62 : Ref sig .tc := ⟨.hbm, 92, rfl⟩
abbrev main_v63 : Ref sig .tc := ⟨.hbm, 93, rfl⟩
abbrev main_c_16 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_17 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_18 : Ref sig .tc := ⟨.hbm, 106, rfl⟩
abbrev main_v74 : Ref sig .tc := ⟨.hbm, 107, rfl⟩
abbrev main_cst_19 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_cst_20 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_21 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  reducesTo_S1600000x64_S1600000_d1 : S1600000x64.ReducesTo [1] S1600000
  h_S_ : 0 < S_.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S4x64_S64x4_1_0 : S4x64.Transposes [1, 0] S64x4
  reducesTo_S50000x4_S50000_d1 : S50000x4.ReducesTo [1] S50000
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x4_0_1 : S50000x1.BroadcastsInDim S50000x4 (![0, 1] : Fin 2 → Fin S50000x4.rank)
  bcast_S50000x4_S50000x4x1_0_1 : S50000x4.BroadcastsInDim S50000x4x1 (![0, 1] : Fin 2 → Fin S50000x4x1.rank)
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S1000000x1_S1000000x64_0_1 : S1000000x1.BroadcastsInDim S1000000x64 (![0, 1] : Fin 2 → Fin S1000000x64.rank)
  bcast_S_S50000x64 : S_.BroadcastsInDim S50000x64 (![] : Fin 0 → Fin S50000x64.rank)
  reducesTo_S4x8_S4_d1 : S4x8.ReducesTo [1] S4
  bcast_S_S4 : S_.BroadcastsInDim S4 (![] : Fin 0 → Fin S4.rank)
  bcast_S4_S4x1_0 : S4.BroadcastsInDim S4x1 (![0] : Fin 1 → Fin S4x1.rank)
  bcast_S4x1_S4x8_0_1 : S4x1.BroadcastsInDim S4x8 (![0, 1] : Fin 2 → Fin S4x8.rank)
  bcast_S4x64_S1x4x64_1_2 : S4x64.BroadcastsInDim S1x4x64 (![1, 2] : Fin 2 → Fin S1x4x64.rank)
  bcast_S1x4x64_S50000x4x64_0_1_2 : S1x4x64.BroadcastsInDim S50000x4x64 (![0, 1, 2] : Fin 3 → Fin S50000x4x64.rank)
  bcast_S50000x4x1_S50000x4x64_0_1_2 : S50000x4x1.BroadcastsInDim S50000x4x64 (![0, 1, 2] : Fin 3 → Fin S50000x4x64.rank)
  reducesTo_S50000x4x64_S50000x64_d1 : S50000x4x64.ReducesTo [1] S50000x64
  gather_S31x64_S1600000x1_S1600000x64_1_0_n_n_0_1_164_wf : GatherDims.WF S31x64 S1600000x1 S1600000x64 [1] [0] [] [0] [] 1 ![1, 64]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S50000x64_S64x4_S50000x4_1_0_0_1_n_n_wf : DotDims.WF S50000x64 S64x4 S50000x4 [1] [0] [0] [1] [] []
  gather_S100000x64_S1000000x1_S1000000x64_1_0_n_n_0_1_164_wf : GatherDims.WF S100000x64 S1000000x1 S1000000x64 [1] [0] [] [0] [] 1 ![1, 64]
  scatter_S50000x64_S1000000x1_S1000000x64_1_0_0_1_wf : ScatterDims.WF S50000x64 S1000000x1 S1000000x64 [1] [0] [0] 1
  dot_S4x8_S8x64_S4x64_1_0_0_1_n_n_wf : DotDims.WF S4x8 S8x64 S4x64 [1] [0] [0] [1] [] []

variable [Facts₀]

def gather_S31x64_S1600000x1_S1600000x64_1_0_n_n_0_1_164 : GatherDims S31x64 S1600000x1 S1600000x64 where
  offsetDims := [1]
  collapsedSliceDims := [0]
  operandBatchingDims := []
  startIndicesBatchingDims := []
  startIndexMap := [0]
  indexVectorDim := 1
  sliceSizes := ![1, 64]
  wf := gather_S31x64_S1600000x1_S1600000x64_1_0_n_n_0_1_164_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S50000x64_S64x4_S50000x4_1_0_0_1_n_n : DotDims S50000x64 S64x4 S50000x4 where
  lhsContracting := [1]
  rhsContracting := [0]
  lhsNonContracting := [0]
  rhsNonContracting := [1]
  lhsBatch := []
  rhsBatch := []
  wf := dot_S50000x64_S64x4_S50000x4_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf
def dot_S4x8_S8x64_S4x64_1_0_0_1_n_n : DotDims S4x8 S8x64 S4x64 where
  lhsContracting := [1]
  rhsContracting := [0]
  lhsNonContracting := [0]
  rhsNonContracting := [1]
  lhsBatch := []
  rhsBatch := []
  wf := dot_S4x8_S8x64_S4x64_1_0_0_1_n_n_wf

class Facts : Prop extends Facts₀ where

variable [Facts]
-- ==== Proof.KRun.lean ====
/-
  The idealized kernel program's run with its two results NAMED.

  The program is three pipelined kernel regions among four stretches of host operations. The generated frame
  module folds the buffer contents through these six segments from the launch memory: the contents after the
  last segment are `Gen.W6 m ρ c`. Here the same run is stated with a post that also reads the two result
  buffers: each ends holding the fold's value at its reference, and the twelve arguments end as launched.
-/
import proofs.«110572_j67336497267221_1_alg».proof.Defs
import proofs.«110572_j67336497267221_1_alg».proof.Proof.Gen.KernelIdeal.Frame

set_option maxRecDepth 16384

noncomputable section

namespace Cert.Hand.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the entity result and the user result end
    at the last segment boundary's contents, and every argument ends as launched. -/
theorem run_out : θ_run defs (onTc (τ := τ) (main (F := F))) ⟨m, fun _ => 0, ρ⟩ (fun r => ∀ c : Dev nD,
      r.2.mem ((c.tc : Thread nD τ).loc main_v35) = W6 m ρ c (Proc.devRef .tc main_v35)
      ∧ r.2.mem ((c.tc : Thread nD τ).loc main_v60) = W6 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v35 (by decide)),
       h c _ (mem_uc main_v60 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩)

end Cert.Hand.KRun

end
-- ==== Proof.Spec.lean ====
/-
  The mathematics of the three kernels, stated once over the extended reals and over plain index types, with
  no program in sight.

  * `neigh`: for an edge `e` and a channel `j`, the attention weight `σ(∑ₖ X[e,k]·R[e,k])` times `Y[e,j]·R[e,j]` — the
    relation-weighted neighbour message; `σ x = 1 / (1 + e⁻ˣ)`.
  * `weighted`: a row of `C` scaled by the row's scalar `v[n]`.
  * `logit`, `rowmax`, `ex`, `sm`: a row's four scores against the latent factors, their maximum (taken from
    `-∞`), the shifted exponentials and the softmax.
  * `comb`: the softmax row times the factor table, `∑_f sm[u,f]·D[f,c]`.
  * `userOut`: `A[u,c]·(comb[u,c] + 1)`.

  Every function works row by row: an entry of the result depends on entries of the same row of the operands only.
  That is why a block of rows of the result is the same function of the blocks of rows of the operands
  (`neigh_rows`, `weighted_rows`, `userOut_rows`).

  The one law that needs finiteness: for a REAL `x` and any extended real `a`, `x·(a + 1) = x·a + x`.
-/
import Idealize.ShloMosaic.PureOps.Ideal
import Idealize.ShloMosaic.PureOps.Ideal.Laws
import Idealize.ShloMosaic.Lib.ValueIdx

noncomputable section

namespace Cert.Hand.Spec

open Idealize.ShloMosaic Idealize.ShloMosaic.ValueIdx

/-- The float word of `1.0`, `0.0` and `-∞` read as extended reals. -/
abbrev one32 : EReal := Ideal.ofBits .f32 0x3F800000#32
abbrev zero32 : EReal := Ideal.ofBits .f32 0x00000000#32
abbrev ninf32 : EReal := Ideal.ofBits .f32 0xFF800000#32

theorem one32_eq : one32 = 1 := by
  show Ideal.ofBits .f32 0x3F800000#32 = 1
  simp [Ideal.ofBits, Ideal.ieee, -EReal.coe_mul]; norm_num

theorem zero32_eq : zero32 = 0 := Ideal.ofBits_zero_f32

theorem ninf32_eq : ninf32 = ⊥ := by
  show Ideal.ofBits .f32 0xFF800000#32 = ⊥
  simp [Ideal.ofBits, Ideal.ieee]

variable {E : Nat}

/-- The weighted neighbour message of edge `i 0` at channel `i 1`. -/
def neigh (X Y R : (⟨2, ![E, 64]⟩ : Shape).Idx → EReal) : (⟨2, ![E, 64]⟩ : Shape).Idx → EReal :=
  fun i => Ideal.logistic (∑ k : Fin 64, X (ix2 (i 0) k) * R (ix2 (i 0) k)) * (Y i * R i)

/-- Row `i 0` of `C` scaled by the row's scalar. -/
def weighted (C : (⟨2, ![E, 64]⟩ : Shape).Idx → EReal) (v : (⟨1, ![E]⟩ : Shape).Idx → EReal) :
    (⟨2, ![E, 64]⟩ : Shape).Idx → EReal :=
  fun i => C i * v (ix1 (i 0))

/-- Row `u`'s score against latent factor `f`. -/
def logit (Us : (⟨2, ![E, 64]⟩ : Shape).Idx → EReal) (Lat : (⟨2, ![4, 64]⟩ : Shape).Idx → EReal) (u : Fin E) (f : Fin 4) : EReal :=
  ∑ k : Fin 64, Us (ix2 u k) * Lat (ix2 f k)

/-- The row's largest score, folded from `-∞` and compared with `-∞` once more, as both programs spell it. -/
def rowmax (Us : (⟨2, ![E, 64]⟩ : Shape).Idx → EReal) (Lat : (⟨2, ![4, 64]⟩ : Shape).Idx → EReal) (u : Fin E) : EReal :=
  max ninf32 ((Finset.univ : Finset (Fin 4)).fold max ninf32 (fun f => logit Us Lat u f))

/-- The shifted exponential of a score. -/
def ex (Us : (⟨2, ![E, 64]⟩ : Shape).Idx → EReal) (Lat : (⟨2, ![4, 64]⟩ : Shape).Idx → EReal) (u : Fin E) (f : Fin 4) : EReal :=
  Ideal.exp (logit Us Lat u f - rowmax Us Lat u)

/-- The softmax of the row's four scores. -/
def sm (Us : (⟨2, ![E, 64]⟩ : Shape).Idx → EReal) (Lat : (⟨2, ![4, 64]⟩ : Shape).Idx → EReal) (u : Fin E) (f : Fin 4) : EReal :=
  Ideal.div (ex Us Lat u f) (∑ f' : Fin 4, ex Us Lat u f')

/-- The softmax row against the factor table. -/
def comb (Us : (⟨2, ![E, 64]⟩ : Shape).Idx → EReal) (Lat D : (⟨2, ![4, 64]⟩ : Shape).Idx → EReal) :
    (⟨2, ![E, 64]⟩ : Shape).Idx → EReal :=
  fun i => ∑ f : Fin 4, sm Us Lat (i 0) f * D (ix2 f (i 1))

/-- The user result: the aggregate times the combination plus one. -/
def userOut (Us : (⟨2, ![E, 64]⟩ : Shape).Idx → EReal) (Lat D : (⟨2, ![4, 64]⟩ : Shape).Idx → EReal)
    (A : (⟨2, ![E, 64]⟩ : Shape).Idx → EReal) : (⟨2, ![E, 64]⟩ : Shape).Idx → EReal :=
  fun i => A i * (comb Us Lat D i + one32)

/-! ## Rows: a block of rows of the result is the function of the blocks of rows -/

variable {B : Nat}

/-- Rows `off … off + B - 1` of an array of `E` rows, as an index map. -/
def rowsAt (off : Nat) (h : off + B ≤ E) {W : Nat} (i : (⟨2, ![B, W]⟩ : Shape).Idx) : (⟨2, ![E, W]⟩ : Shape).Idx :=
  ix2 ⟨off + (i 0).val, by have hi : (i 0).val < B := (i 0).isLt; omega⟩ (i 1)

theorem rowsAt_ix2 (off : Nat) (h : off + B ≤ E) {W : Nat} (p : Fin B) (k : Fin W) :
    rowsAt (E := E) off h (ix2 p k) = ix2 ⟨off + p.val, by have := p.isLt; omega⟩ k := rfl

theorem neigh_rows (off : Nat) (h : off + B ≤ E) (X Y R : (⟨2, ![E, 64]⟩ : Shape).Idx → EReal) (i : (⟨2, ![B, 64]⟩ : Shape).Idx) :
    neigh (fun y => X (rowsAt off h y)) (fun y => Y (rowsAt off h y)) (fun y => R (rowsAt off h y)) i
      = neigh X Y R (rowsAt off h i) := rfl

theorem userOut_rows (off : Nat) (h : off + B ≤ E) (Us : (⟨2, ![E, 64]⟩ : Shape).Idx → EReal) (Lat D : (⟨2, ![4, 64]⟩ : Shape).Idx → EReal)
    (A : (⟨2, ![E, 64]⟩ : Shape).Idx → EReal) (i : (⟨2, ![B, 64]⟩ : Shape).Idx) :
    userOut (fun y => Us (rowsAt off h y)) Lat D (fun y => A (rowsAt off h y)) i
      = userOut Us Lat D A (rowsAt off h i) := rfl

/-! ## The law that needs a finite factor -/

/-- For a real `x`: `x·(a + 1) = x·a + x` on the extended reals, whatever `a` is. -/
theorem real_mul_add_one (x : ℝ) (a : EReal) : (x : EReal) * (a + 1) = (x : EReal) * a + (x : EReal) := by
  induction a using EReal.rec with
  | bot =>
    rw [EReal.bot_add]
    rcases lt_trichotomy x 0 with hx | hx | hx
    · rw [EReal.coe_mul_bot_of_neg hx, EReal.top_add_of_ne_bot (EReal.coe_ne_bot x)]
    · subst hx; simp
    · rw [EReal.coe_mul_bot_of_pos hx, EReal.bot_add]
  | coe a =>
    rw [← EReal.coe_one, ← EReal.coe_add, ← EReal.coe_mul, ← EReal.coe_mul, ← EReal.coe_add]
    congr 1; ring
  | top =>
    rw [EReal.top_add_of_ne_bot (by exact_mod_cast EReal.coe_ne_bot 1)]
    rcases lt_trichotomy x 0 with hx | hx | hx
    · rw [EReal.coe_mul_top_of_neg hx, EReal.bot_add]
    · subst hx; simp
    · rw [EReal.coe_mul_top_of_pos hx, EReal.top_add_of_ne_bot (EReal.coe_ne_bot x)]

end Cert.Hand.Spec

end
-- ==== Proof.Lay.lean ====
/-
  Layout operations of a column kept as a trailing unit axis, read at an index, and a lane sum read at a row.

  A vector of length `a` cast to `[a, 1]` holds at `(i, 0)` what the vector holds at `i`; an `[a, 1]` column
  broadcast to `[a, b]` holds at `(i, q)` what the column holds at `(i, 0)`.
-/
import Idealize.ShloMosaic.Lib.Pipeline.Value
import Idealize.ShloMosaic.Lib.ValueIdx

noncomputable section

namespace Cert.Hand.Lay

open Idealize.ShloMosaic Idealize.ShloMosaic.ValueIdx

variable {α : Type}

/-- `[a] → [a, 1]` at `(i, 0)`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- `[a, 1] → [a, b]` at `(i, q)`. -/
theorem broadcastTo_a1_ab_apply {a b : ℕ} (x : (⟨2, ![a, 1]⟩ : Shape).Idx → α) (h : (⟨2, ![a, 1]⟩ : Shape).Broadcasts ⟨2, ![a, b]⟩)
    (i : Fin a) (q : Fin b) (u : Fin 1) : broadcastTo ⟨2, ![a, b]⟩ x h (ix2 i q) = x (ix2 i u) :=
  broadcastTo_apply x h _ _ (fun a' => by
    have hu : u.val = 0 := by omega
    match a' with
    | ⟨0, _⟩ =>
      show i.val = if a = 1 then 0 else i.val
      split_ifs with h1
      · have := i.isLt; omega
      · rfl
    | ⟨1, _⟩ =>
      show u.val = if (1 : ℕ) = 1 then 0 else _
      rw [if_pos rfl, hu])

end Cert.Hand.Lay

end
-- ==== Proof.Pay.lean ====
/-
  What the first two kernel bodies compute, entry by entry.

  The edge kernel's stored value at `(p, q)` of its block is `σ(∑ₖ h[p,k]·r[p,k]) · (t[p,q]·r[p,q])` of the three
  loaded blocks: `Spec.neigh` of them. The weighting kernel's is `c[p,q]·v[p,0]`.
-/
import proofs.«110572_j67336497267221_1_alg».proof.Proof.Gen.KernelIdeal.Skeleton
import proofs.«110572_j67336497267221_1_alg».proof.Proof.Spec
import proofs.«110572_j67336497267221_1_alg».proof.Proof.Lay
import Idealize.ShloMosaic.Lib.Pipeline.Value
import Idealize.ShloMosaic.Lib.ValueIdx
import Idealize.ShloMosaic.PureOps.Ideal.Laws

noncomputable section

namespace Cert.Hand.Pay

open Cert.KernelIdeal Cert.KernelIdeal.Gen Idealize.ShloMosaic Idealize.ShloMosaic.ValueIdx Cert.Hand

/-- A lane sum of an `[8000, 64]` block at row `p`. -/
theorem laneSum0 (v : FVec Ideal S8000x64 .f32) (hφ : FKind.Formats .f32) (hacc : (0x00000000#32 : BitVec 32) = 0x00000000#32) (p : Fin 8000) :
    multiReduction .add [1] S8000 v 0x00000000#32 reduces_S8000x64_S8000 hφ hacc (ix1 p) = ∑ k : Fin 64, v (ix2 p k) := by
  refine (Ideal.multiReduction_add_single v 0x00000000#32 reduces_S8000x64_S8000 hφ hacc (ix1 p)).trans ?_
  refine Finset.sum_congr rfl fun k _ => ?_
  exact congrArg v (funext fun a => Fin.ext (by match a with | ⟨0, _⟩ => rfl | ⟨1, _⟩ => rfl))

/-- The edge kernel's payload is the weighted neighbour message of its three blocks. -/
theorem pay0_eq (x0 x1 x2 : Vec Ideal S8000x64 .f32) :
    k0_pay1 (F := Ideal) x0 x1 x2 = Spec.neigh (E := 8000) x0 x1 x2 := by
  funext j
  obtain ⟨p, q, rfl⟩ : ∃ (p : Fin 8000) (q : Fin 64), j = ix2 p q := ⟨j 0, j 1, eq_ix2 j⟩
  unfold k0_pay1 Spec.neigh
  simp only [shapeCast_self]
  rw [mulf_apply, mulf_apply, Lay.broadcastTo_a1_ab_apply _ _ p q 0]
  show Ideal.logistic (shapeCast S8000x1 _ _ (ix2 p (0 : Fin 1))) * _ = _
  rw [Lay.shapeCast_a_a1_apply _ _ p 0, laneSum0]
  rfl

/-- A row of `C` scaled by the entry of a one-column array in the same row. -/
def weightedCol {N : Nat} (C : (⟨2, ![N, 64]⟩ : Shape).Idx → EReal) (V : (⟨2, ![N, 1]⟩ : Shape).Idx → EReal) :
    (⟨2, ![N, 64]⟩ : Shape).Idx → EReal :=
  fun i => C i * V (ix2 (i 0) (0 : Fin 1))

/-- The weighting kernel's payload. -/
theorem pay1_eq (x0 : Vec Ideal S8000x64 .f32) (x2 : Vec Ideal S8000x1 .f32) :
    k1_pay1 (F := Ideal) x0 x2 = weightedCol (N := 8000) x0 x2 := by
  funext j
  obtain ⟨p, q, rfl⟩ : ∃ (p : Fin 8000) (q : Fin 64), j = ix2 p q := ⟨j 0, j 1, eq_ix2 j⟩
  unfold k1_pay1 weightedCol
  simp only [shapeCast_self]
  rw [mulf_apply, Lay.broadcastTo_a1_ab_apply _ _ p q 0]

end Cert.Hand.Pay

end
-- ==== Proof.Pay2.lean ====
/-
  What the user kernel's body computes, entry by entry: for row `p` of its block and channel `q`,
  `A[p,q] · (∑_f sm[p,f]·D[f,q] + 1)`, where `sm[p,·]` is the softmax of the row's four scores
  `∑ₖ U[p,k]·Lat[f,k]`: `Spec.userOut` of the four loaded blocks.
-/
import proofs.«110572_j67336497267221_1_alg».proof.Proof.Gen.KernelIdeal.Skeleton
import proofs.«110572_j67336497267221_1_alg».proof.Proof.Spec
import proofs.«110572_j67336497267221_1_alg».proof.Proof.Lay
import Idealize.ShloMosaic.Lib.Pipeline.Value
import Idealize.ShloMosaic.Lib.ValueIdx
import Idealize.ShloMosaic.PureOps.Ideal.Laws

noncomputable section

namespace Cert.Hand.Pay2

open Cert.KernelIdeal Cert.KernelIdeal.Gen Idealize.ShloMosaic Idealize.ShloMosaic.ValueIdx Cert.Hand

/-- The scores' contraction: rows of the user block against rows of the latent table. -/
abbrev D1 : DotDims S5000x64 S4x64 S5000x4 := dot_S5000x64_S4x64_S5000x4_1_1_0_0_n_n
/-- The combination's contraction: the softmax row against the factor table's columns. -/
abbrev D2 : DotDims S5000x4 S4x64 S5000x64 := dot_S5000x4_S4x64_S5000x64_1_0_0_1_n_n

theorem exp_apply {s : Shape} {φ : FTy} (a : FVec Ideal s φ) (i : s.Idx) : exp a i = Ideal.exp (a i) := rfl

theorem d1_lhs0 (i : S5000x4.Idx) (q : D1.contr.Idx) : (D1.lhsIdx i q 0).val = (i 0).val := by
  unfold DotDims.lhsIdx
  rw [dif_neg (show ¬(0 : Fin S5000x64.rank) ∈ D1.lhsBatch by decide), dif_pos (show (0 : Fin S5000x64.rank) ∈ D1.lhsNonContracting by decide)]
  rfl
theorem d1_lhs1 (i : S5000x4.Idx) (q : D1.contr.Idx) : (D1.lhsIdx i q 1).val = (q ⟨0, by decide⟩).val :=
  D1.lhsIdx_val_of_single rfl i q
theorem d1_rhs0 (i : S5000x4.Idx) (q : D1.contr.Idx) : (D1.rhsIdx i q 0).val = (i 1).val := by
  unfold DotDims.rhsIdx
  rw [dif_neg (show ¬(0 : Fin S4x64.rank) ∈ D1.rhsBatch by decide), dif_pos (show (0 : Fin S4x64.rank) ∈ D1.rhsNonContracting by decide)]
  rfl
theorem d1_rhs1 (i : S5000x4.Idx) (q : D1.contr.Idx) : (D1.rhsIdx i q 1).val = (q ⟨0, by decide⟩).val :=
  D1.rhsIdx_val_of_single rfl i q

/-- A score: row `p` of the user block against row `f` of the latent table. -/
theorem logits_apply (v0 : FVec Ideal S5000x64 .f32) (v1 : FVec Ideal S4x64 .f32) (p : Fin 5000) (f : Fin 4) :
    matmul D1 none v0 v1 (constant S5000x4 .f32 0x00000000#32) (ix2 p f) = ∑ k : Fin 64, v0 (ix2 p k) * v1 (ix2 f k) := by
  refine (Ideal.matmul_constant_zero_apply D1 none v0 v1 (ix2 p f)).trans ?_
  rw [← Equiv.sum_comp (contrEquiv1 D1 64 rfl rfl).symm]
  refine Finset.sum_congr rfl fun k _ => ?_
  have hk := contrEquiv1_symm_val D1 64 rfl rfl k
  have el : D1.lhsIdx (ix2 p f) ((contrEquiv1 D1 64 rfl rfl).symm k) = ix2 p k := funext fun a => Fin.ext (by
    match a with
    | ⟨0, _⟩ => exact d1_lhs0 _ _
    | ⟨1, _⟩ => exact (d1_lhs1 _ _).trans hk)
  have er : D1.rhsIdx (ix2 p f) ((contrEquiv1 D1 64 rfl rfl).symm k) = ix2 f k := funext fun a => Fin.ext (by
    match a with
    | ⟨0, _⟩ => exact d1_rhs0 _ _
    | ⟨1, _⟩ => exact (d1_rhs1 _ _).trans hk)
  rw [el, er]

theorem d2_lhs0 (i : S5000x64.Idx) (q : D2.contr.Idx) : (D2.lhsIdx i q 0).val = (i 0).val := by
  unfold DotDims.lhsIdx
  rw [dif_neg (show ¬(0 : Fin S5000x4.rank) ∈ D2.lhsBatch by decide), dif_pos (show (0 : Fin S5000x4.rank) ∈ D2.lhsNonContracting by decide)]
  rfl
theorem d2_lhs1 (i : S5000x64.Idx) (q : D2.contr.Idx) : (D2.lhsIdx i q 1).val = (q ⟨0, by decide⟩).val :=
  D2.lhsIdx_val_of_single rfl i q
theorem d2_rhs0 (i : S5000x64.Idx) (q : D2.contr.Idx) : (D2.rhsIdx i q 0).val = (q ⟨0, by decide⟩).val :=
  D2.rhsIdx_val_of_single rfl i q
theorem d2_rhs1 (i : S5000x64.Idx) (q : D2.contr.Idx) : (D2.rhsIdx i q 1).val = (i 1).val := by
  unfold DotDims.rhsIdx
  rw [dif_neg (show ¬(1 : Fin S4x64.rank) ∈ D2.rhsBatch by decide), dif_pos (show (1 : Fin S4x64.rank) ∈ D2.rhsNonContracting by decide)]
  rfl

/-- The combination: row `p` of the softmax block against column `q` of the factor table. -/
theorem comb_apply (A : FVec Ideal S5000x4 .f32) (B : FVec Ideal S4x64 .f32) (p : Fin 5000) (q : Fin 64) :
    matmul D2 none A B (constant S5000x64 .f32 0x00000000#32) (ix2 p q) = ∑ f : Fin 4, A (ix2 p f) * B (ix2 f q) := by
  refine (Ideal.matmul_constant_zero_apply D2 none A B (ix2 p q)).trans ?_
  rw [← Equiv.sum_comp (contrEquiv1 D2 4 rfl rfl).symm]
  refine Finset.sum_congr rfl fun k _ => ?_
  have hk := contrEquiv1_symm_val D2 4 rfl rfl k
  have el : D2.lhsIdx (ix2 p q) ((contrEquiv1 D2 4 rfl rfl).symm k) = ix2 p k := funext fun a => Fin.ext (by
    match a with
    | ⟨0, _⟩ => exact d2_lhs0 _ _
    | ⟨1, _⟩ => exact (d2_lhs1 _ _).trans hk)
  have er : D2.rhsIdx (ix2 p q) ((contrEquiv1 D2 4 rfl rfl).symm k) = ix2 k q := funext fun a => Fin.ext (by
    match a with
    | ⟨0, _⟩ => exact (d2_rhs0 _ _).trans hk
    | ⟨1, _⟩ => exact d2_rhs1 _ _)
  rw [el, er]

/-- A row's maximum, folded from `-∞`. -/
theorem rowMax_apply (v : FVec Ideal S5000x4 .f32) (hφ : FKind.Formats .f32) (hacc : (0xFF800000#32 : BitVec 32) = 0xFF800000#32) (p : Fin 5000) :
    multiReduction .maximumf [1] S5000 v 0xFF800000#32 reduces_S5000x4_S5000 hφ hacc (ix1 p)
      = (Finset.univ : Finset (Fin 4)).fold max Spec.ninf32 (fun f => v (ix2 p f)) := by
  refine (Ideal.multiReduction_maximumf_single v 0xFF800000#32 reduces_S5000x4_S5000 hφ hacc (ix1 p)).trans ?_
  refine congrArg (fun g => (Finset.univ : Finset (Fin 4)).fold max Spec.ninf32 g) (funext fun f => ?_)
  exact congrArg v (funext fun a => Fin.ext (by match a with | ⟨0, _⟩ => rfl | ⟨1, _⟩ => rfl))

/-- A row's sum of four. -/
theorem laneSum4 (v : FVec Ideal S5000x4 .f32) (hφ : FKind.Formats .f32) (hacc : (0x00000000#32 : BitVec 32) = 0x00000000#32) (p : Fin 5000) :
    multiReduction .add [1] S5000 v 0x00000000#32 reduces_S5000x4_S5000 hφ hacc (ix1 p) = ∑ f : Fin 4, v (ix2 p f) := by
  refine (Ideal.multiReduction_add_single v 0x00000000#32 reduces_S5000x4_S5000 hφ hacc (ix1 p)).trans ?_
  refine Finset.sum_congr rfl fun k _ => ?_
  exact congrArg v (funext fun a => Fin.ext (by match a with | ⟨0, _⟩ => rfl | ⟨1, _⟩ => rfl))

/-- The shifted exponential of the score block at `(p, f)`. -/
theorem exK_apply (L : FVec Ideal S5000x4 .f32) (hφ : FKind.Formats .f32) (hacc : (0xFF800000#32 : BitVec 32) = 0xFF800000#32) (p : Fin 5000) (f : Fin 4) :
    exp (subf L (broadcastTo S5000x4 (shapeCast S5000x1 (maximumf (broadcast S5000 (Scalar.ofBits .f32 0xFF800000#32))
        (multiReduction .maximumf [1] S5000 L 0xFF800000#32 reduces_S5000x4_S5000 hφ hacc)) shapeCasts_S5000_S5000x1) broadcasts_S5000x1_S5000x4)) (ix2 p f)
      = Ideal.exp (L (ix2 p f) - max Spec.ninf32 ((Finset.univ : Finset (Fin 4)).fold max Spec.ninf32 (fun f' => L (ix2 p f')))) := by
  rw [exp_apply, subf_apply, Lay.broadcastTo_a1_ab_apply _ _ p f 0, Lay.shapeCast_a_a1_apply _ _ p 0, maximumf_apply, broadcast_apply,
    rowMax_apply]
  rfl

/-- The user kernel's payload is `Spec.userOut` of its four blocks. -/
theorem pay2_eq (x0 : Vec Ideal S5000x64 .f32) (x1 x2 : Vec Ideal S4x64 .f32) (x3 : Vec Ideal S5000x64 .f32) :
    k2_pay1 (F := Ideal) x0 x1 x2 x3 = Spec.userOut (E := 5000) x0 x1 x2 x3 := by
  funext j
  obtain ⟨p, q, rfl⟩ : ∃ (p : Fin 5000) (q : Fin 64), j = ix2 p q := ⟨j 0, j 1, eq_ix2 j⟩
  unfold k2_pay1
  simp only [shapeCast_self]
  rw [mulf_apply, addf_apply, broadcast_apply, comb_apply]
  unfold Spec.userOut Spec.comb
  refine congrArg (fun z => x3 (ix2 p q) * (z + Spec.one32)) (Finset.sum_congr rfl fun f _ => ?_)
  refine congrArg (· * x2 (ix2 f q)) ?_
  rw [divf_apply]
  unfold Spec.sm
  congr 1
  · rw [exK_apply]
    simp only [logits_apply]
    rfl
  · rw [Lay.broadcastTo_a1_ab_apply _ _ p f 0, Lay.shapeCast_a_a1_apply _ _ p 0, laneSum4]
    refine Finset.sum_congr rfl fun f' _ => ?_
    rw [exK_apply]
    simp only [logits_apply]
    rfl

end Cert.Hand.Pay2

end
-- ==== Proof.Final.lean ====
/-
  From blocks to arrays, for each of the three kernel regions, at ANY contents `V` of the buffers when the region is
  entered.

  Every window of these kernels walks its array in blocks of whole rows: at grid point `t` a row-blocked window holds
  rows `t·B … t·B + B − 1` of its array and a small table is held whole. Each kernel's result is a function that
  works row by row (`Spec`), so what point `t` writes back is rows `t·B …` of that function of the whole arrays,
  and the blocks written back cover the result array: after the region the result array IS that function of the
  operand arrays.
-/
import proofs.«110572_j67336497267221_1_alg».proof.Proof.Gen.KernelIdeal.Frame
import proofs.«110572_j67336497267221_1_alg».proof.Proof.Spec
import proofs.«110572_j67336497267221_1_alg».proof.Proof.Pay
import proofs.«110572_j67336497267221_1_alg».proof.Proof.Pay2
import Idealize.ShloMosaic.Lib.Pipeline.Value
import Idealize.ShloMosaic.Lib.Tactic

set_option maxRecDepth 16384

noncomputable section

namespace Cert.Hand.Final

open Cert.KernelIdeal Cert.KernelIdeal.Gen Cert.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Region 0: the edge kernel -/

/-- Every window of the edge kernel is at block row `t`, block column 0. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The messages of all edges, from the three gathered operand arrays. -/
abbrev G0 (c : Dev nD) : Buf (Elt Ideal) ((c : Thread nD τ).loc main_v23) :=
  Spec.neigh (E := 1600000) (V c main_v6) (V c main_v13) (V c main_v22)

theorem flushed0 (c : Dev nD) (t : Fin cfg0.N) :
    (dat0 V c).flushed 3 t = ((cfg0.win 3).blk t).view.read (Elt Ideal) (G0 V c) := by
  show (cfg0.win 3).cut (grid0.coords t) ((dat0 V c).after 3 t) = _
  rw [after0_3]
  unfold out0_3
  rw [View.canon_unit_zero hz]
  simp only [View.ld_unit_zero (S := S8000x64) hz]
  rw [Pay.pay0_eq]
  have hN : t.val < 200 := t.isLt.trans_eq (show cfg0.N = 200 from N_0)
  have hb : t.val * 8000 + 8000 ≤ 1600000 := by omega
  obtain ⟨e0, e1, e2, e3, e4, e5, e6, e7⟩ := idx0 t
  have h0 : (iblk0 V c 0 t : Vec Ideal S8000x64 .f32) = fun y => V c main_v6 (Spec.rowsAt (E := 1600000) (t.val * 8000) hb y) := by
    funext y
    show V c main_v6 (((cfg0.win 0).blk t).view.emb y) = V c main_v6 _
    refine congrArg _ (funext fun a => Fin.ext ?_)
    match a with
    | ⟨0, _⟩ => show win0_0.index t (0 : Fin 2) * 8000 + 1 * (y 0).val = t.val * 8000 + (y 0).val; rw [e0]; omega
    | ⟨1, _⟩ => show win0_0.index t (1 : Fin 2) * 64 + 1 * (y 1).val = (y 1).val; rw [e1]; omega
  have h1 : (iblk0 V c 1 t : Vec Ideal S8000x64 .f32) = fun y => V c main_v13 (Spec.rowsAt (E := 1600000) (t.val * 8000) hb y) := by
    funext y
    show V c main_v13 (((cfg0.win 1).blk t).view.emb y) = V c main_v13 _
    refine congrArg _ (funext fun a => Fin.ext ?_)
    match a with
    | ⟨0, _⟩ => show win0_1.index t (0 : Fin 2) * 8000 + 1 * (y 0).val = t.val * 8000 + (y 0).val; rw [e2]; omega
    | ⟨1, _⟩ => show win0_1.index t (1 : Fin 2) * 64 + 1 * (y 1).val = (y 1).val; rw [e3]; omega
  have h2 : (iblk0 V c 2 t : Vec Ideal S8000x64 .f32) = fun y => V c main_v22 (Spec.rowsAt (E := 1600000) (t.val * 8000) hb y) := by
    funext y
    show V c main_v22 (((cfg0.win 2).blk t).view.emb y) = V c main_v22 _
    refine congrArg _ (funext fun a => Fin.ext ?_)
    match a with
    | ⟨0, _⟩ => show win0_2.index t (0 : Fin 2) * 8000 + 1 * (y 0).val = t.val * 8000 + (y 0).val; rw [e4]; omega
    | ⟨1, _⟩ => show win0_2.index t (1 : Fin 2) * 64 + 1 * (y 1).val = (y 1).val; rw [e5]; omega
  rw [h0, h1, h2]
  funext j
  show Spec.neigh _ _ _ j = Spec.neigh (E := 1600000) (V c main_v6) (V c main_v13) (V c main_v22) (((cfg0.win 3).blk t).view.emb j)
  rw [Spec.neigh_rows]
  refine congrArg _ (funext fun a => Fin.ext ?_)
  match a with
  | ⟨0, _⟩ => show t.val * 8000 + (j 0).val = win0_3.index t (0 : Fin 2) * 8000 + 1 * (j 0).val; rw [e6]; omega
  | ⟨1, _⟩ => show (j 1).val = win0_3.index t (1 : Fin 2) * 64 + 1 * (j 1).val; rw [e7]; omega

theorem mem_blk0 (t : Fin cfg0.N) (i : S1600000x64.Idx) :
    i ∈ ((cfg0.win 3).blk t).view.set ↔ ∀ a : Fin 2, win0_3.index t a * S8000x64.size a ≤ (i a).val ∧ (i a).val < win0_3.index t a * S8000x64.size a + S8000x64.size a := by
  show i ∈ ((View.whole main_v23).slice (win0_3.rect t)).set ↔ _
  rw [View.set_slice_whole, Rect.mem_set_unit]
  exact Iff.rfl

theorem cover0 (i : S1600000x64.Idx) : ∃ t : Fin cfg0.N, (cfg0.win 3).flush t = true ∧ i ∈ ((cfg0.win 3).blk t).view.set := by
  have hi0 : (i 0).val < 1600000 := (i 0).isLt
  have hi1 : (i 1).val < 64 := (i 1).isLt
  let t : Fin cfg0.N := ⟨(i 0).val / 8000, by rw [show cfg0.N = 200 from N_0]; omega⟩
  obtain ⟨_, _, _, _, _, _, e6, e7⟩ := idx0 t
  refine ⟨t, flush0_3 t, ?_⟩
  rw [mem_blk0]
  intro a
  have ht : t.val = (i 0).val / 8000 := rfl
  match a with
  | ⟨0, _⟩ => show win0_3.index t (0 : Fin 2) * 8000 ≤ (i 0).val ∧ (i 0).val < win0_3.index t (0 : Fin 2) * 8000 + 8000; rw [e6, ht]; omega
  | ⟨1, _⟩ => show win0_3.index t (1 : Fin 2) * 64 ≤ (i 1).val ∧ (i 1).val < win0_3.index t (1 : Fin 2) * 64 + 64; rw [e7]; omega

/-- After the edge region its result array holds every edge's message. -/
theorem final0 (c : Dev nD) : (dat0 V c).arrAt 3 cfg0.N = G0 V c :=
  (dat0 V c).arrAt_eq_of_cover 3 (G0 V c) (fun t _ => flushed0 V c t) cover0

/-! ## Region 1: the weighting kernel -/

theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The weighted rows, from the gathered array and the one-column array of scalars. -/
abbrev G1 (c : Dev nD) : Buf (Elt Ideal) ((c : Thread nD τ).loc main_v44) :=
  Pay.weightedCol (N := 1000000) (V c main_v42) (V c main_v43)

theorem weightedCol_rows {E B : Nat} (off : Nat) (h : off + B ≤ E) (C : (⟨2, ![E, 64]⟩ : Shape).Idx → EReal)
    (Vv : (⟨2, ![E, 1]⟩ : Shape).Idx → EReal) (i : (⟨2, ![B, 64]⟩ : Shape).Idx) :
    Pay.weightedCol (fun y => C (Spec.rowsAt off h y)) (fun y => Vv (Spec.rowsAt off h y)) i
      = Pay.weightedCol C Vv (Spec.rowsAt off h i) := rfl

theorem flushed1 (c : Dev nD) (t : Fin cfg1.N) :
    (dat1 V c).flushed 2 t = ((cfg1.win 2).blk t).view.read (Elt Ideal) (G1 V c) := by
  show (cfg1.win 2).cut (grid1.coords t) ((dat1 V c).after 2 t) = _
  rw [after1_2]
  unfold out1_2
  rw [View.canon_unit_zero hz]
  simp only [View.ld_unit_zero (S := S8000x64) hz, View.ld_unit_zero (S := S8000x1) hz]
  rw [Pay.pay1_eq]
  have hN : t.val < 125 := t.isLt.trans_eq (show cfg1.N = 125 from N_1)
  have hb : t.val * 8000 + 8000 ≤ 1000000 := by omega
  obtain ⟨e0, e1, e2, e3, e4, e5⟩ := idx1 t
  have h0 : (iblk1 V c 0 t : Vec Ideal S8000x64 .f32) = fun y => V c main_v42 (Spec.rowsAt (E := 1000000) (t.val * 8000) hb y) := by
    funext y
    show V c main_v42 (((cfg1.win 0).blk t).view.emb y) = V c main_v42 _
    refine congrArg _ (funext fun a => Fin.ext ?_)
    match a with
    | ⟨0, _⟩ => show win1_0.index t (0 : Fin 2) * 8000 + 1 * (y 0).val = t.val * 8000 + (y 0).val; rw [e0]; omega
    | ⟨1, _⟩ => show win1_0.index t (1 : Fin 2) * 64 + 1 * (y 1).val = (y 1).val; rw [e1]; omega
  have h1 : (iblk1 V c 1 t : Vec Ideal S8000x1 .f32) = fun y => V c main_v43 (Spec.rowsAt (E := 1000000) (t.val * 8000) hb y) := by
    funext y
    show V c main_v43 (((cfg1.win 1).blk t).view.emb y) = V c main_v43 _
    refine congrArg _ (funext fun a => Fin.ext ?_)
    match a with
    | ⟨0, _⟩ => show win1_1.index t (0 : Fin 2) * 8000 + 1 * (y 0).val = t.val * 8000 + (y 0).val; rw [e2]; omega
    | ⟨1, _⟩ => show win1_1.index t (1 : Fin 2) * 1 + 1 * (y 1).val = (y 1).val; rw [e3]; omega
  rw [h0, h1]
  funext j
  show Pay.weightedCol _ _ j = Pay.weightedCol (N := 1000000) (V c main_v42) (V c main_v43) (((cfg1.win 2).blk t).view.emb j)
  rw [weightedCol_rows]
  refine congrArg _ (funext fun a => Fin.ext ?_)
  match a with
  | ⟨0, _⟩ => show t.val * 8000 + (j 0).val = win1_2.index t (0 : Fin 2) * 8000 + 1 * (j 0).val; rw [e4]; omega
  | ⟨1, _⟩ => show (j 1).val = win1_2.index t (1 : Fin 2) * 64 + 1 * (j 1).val; rw [e5]; omega

theorem mem_blk1 (t : Fin cfg1.N) (i : S1000000x64.Idx) :
    i ∈ ((cfg1.win 2).blk t).view.set ↔ ∀ a : Fin 2, win1_2.index t a * S8000x64.size a ≤ (i a).val ∧ (i a).val < win1_2.index t a * S8000x64.size a + S8000x64.size a := by
  show i ∈ ((View.whole main_v44).slice (win1_2.rect t)).set ↔ _
  rw [View.set_slice_whole, Rect.mem_set_unit]
  exact Iff.rfl

theorem cover1 (i : S1000000x64.Idx) : ∃ t : Fin cfg1.N, (cfg1.win 2).flush t = true ∧ i ∈ ((cfg1.win 2).blk t).view.set := by
  have hi0 : (i 0).val < 1000000 := (i 0).isLt
  have hi1 : (i 1).val < 64 := (i 1).isLt
  let t : Fin cfg1.N := ⟨(i 0).val / 8000, by rw [show cfg1.N = 125 from N_1]; omega⟩
  obtain ⟨_, _, _, _, e4, e5⟩ := idx1 t
  refine ⟨t, flush1_2 t, ?_⟩
  rw [mem_blk1]
  intro a
  have ht : t.val = (i 0).val / 8000 := rfl
  match a with
  | ⟨0, _⟩ => show win1_2.index t (0 : Fin 2) * 8000 ≤ (i 0).val ∧ (i 0).val < win1_2.index t (0 : Fin 2) * 8000 + 8000; rw [e4, ht]; omega
  | ⟨1, _⟩ => show win1_2.index t (1 : Fin 2) * 64 ≤ (i 1).val ∧ (i 1).val < win1_2.index t (1 : Fin 2) * 64 + 64; rw [e5]; omega

/-- After the weighting region its result array holds every weighted row. -/
theorem final1 (c : Dev nD) : (dat1 V c).arrAt 2 cfg1.N = G1 V c :=
  (dat1 V c).arrAt_eq_of_cover 2 (G1 V c) (fun t _ => flushed1 V c t) cover1

/-! ## Region 2: the user kernel -/

theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- The user result, from the user rows, the latent table, the factor table and the aggregated rows. -/
abbrev G2 (c : Dev nD) : Buf (Elt Ideal) ((c : Thread nD τ).loc main_v60) :=
  Spec.userOut (E := 50000) (V c main_arg1) (V c main_arg2) (V c main_v59) (V c main_v47)

theorem flushed2 (c : Dev nD) (t : Fin cfg2.N) :
    (dat2 V c).flushed 4 t = ((cfg2.win 4).blk t).view.read (Elt Ideal) (G2 V c) := by
  show (cfg2.win 4).cut (grid2.coords t) ((dat2 V c).after 4 t) = _
  rw [after2_4]
  unfold out2_4
  rw [View.canon_unit_zero hz]
  simp only [View.ld_unit_zero (S := S5000x64) hz, View.ld_unit_zero (S := S4x64) hz]
  rw [Pay2.pay2_eq]
  have hN : t.val < 10 := t.isLt.trans_eq (show cfg2.N = 10 from N_2)
  have hb : t.val * 5000 + 5000 ≤ 50000 := by omega
  obtain ⟨e0, e1, e2, e3, e4, e5, e6, e7, e8, e9⟩ := idx2 t
  have h0 : (iblk2 V c 0 t : Vec Ideal S5000x64 .f32) = fun y => V c main_arg1 (Spec.rowsAt (E := 50000) (t.val * 5000) hb y) := by
    funext y
    show V c main_arg1 (((cfg2.win 0).blk t).view.emb y) = V c main_arg1 _
    refine congrArg _ (funext fun a => Fin.ext ?_)
    match a with
    | ⟨0, _⟩ => show win2_0.index t (0 : Fin 2) * 5000 + 1 * (y 0).val = t.val * 5000 + (y 0).val; rw [e0]; omega
    | ⟨1, _⟩ => show win2_0.index t (1 : Fin 2) * 64 + 1 * (y 1).val = (y 1).val; rw [e1]; omega
  have h1 : (iblk2 V c 1 t : Vec Ideal S4x64 .f32) = V c main_arg2 := by
    funext y
    show V c main_arg2 (((cfg2.win 1).blk t).view.emb y) = V c main_arg2 y
    refine congrArg _ (funext fun a => Fin.ext ?_)
    match a with
    | ⟨0, _⟩ => show win2_1.index t (0 : Fin 2) * 4 + 1 * (y 0).val = (y 0).val; rw [e2]; omega
    | ⟨1, _⟩ => show win2_1.index t (1 : Fin 2) * 64 + 1 * (y 1).val = (y 1).val; rw [e3]; omega
  have h2 : (iblk2 V c 2 t : Vec Ideal S4x64 .f32) = V c main_v59 := by
    funext y
    show V c main_v59 (((cfg2.win 2).blk t).view.emb y) = V c main_v59 y
    refine congrArg _ (funext fun a => Fin.ext ?_)
    match a with
    | ⟨0, _⟩ => show win2_2.index t (0 : Fin 2) * 4 + 1 * (y 0).val = (y 0).val; rw [e4]; omega
    | ⟨1, _⟩ => show win2_2.index t (1 : Fin 2) * 64 + 1 * (y 1).val = (y 1).val; rw [e5]; omega
  have h3 : (iblk2 V c 3 t : Vec Ideal S5000x64 .f32) = fun y => V c main_v47 (Spec.rowsAt (E := 50000) (t.val * 5000) hb y) := by
    funext y
    show V c main_v47 (((cfg2.win 3).blk t).view.emb y) = V c main_v47 _
    refine congrArg _ (funext fun a => Fin.ext ?_)
    match a with
    | ⟨0, _⟩ => show win2_3.index t (0 : Fin 2) * 5000 + 1 * (y 0).val = t.val * 5000 + (y 0).val; rw [e6]; omega
    | ⟨1, _⟩ => show win2_3.index t (1 : Fin 2) * 64 + 1 * (y 1).val = (y 1).val; rw [e7]; omega
  rw [h0, h1, h2, h3]
  funext j
  show Spec.userOut _ _ _ _ j = Spec.userOut (E := 50000) (V c main_arg1) (V c main_arg2) (V c main_v59) (V c main_v47) (((cfg2.win 4).blk t).view.emb j)
  rw [Spec.userOut_rows]
  refine congrArg _ (funext fun a => Fin.ext ?_)
  match a with
  | ⟨0, _⟩ => show t.val * 5000 + (j 0).val = win2_4.index t (0 : Fin 2) * 5000 + 1 * (j 0).val; rw [e8]; omega
  | ⟨1, _⟩ => show (j 1).val = win2_4.index t (1 : Fin 2) * 64 + 1 * (j 1).val; rw [e9]; omega

theorem mem_blk2 (t : Fin cfg2.N) (i : S50000x64.Idx) :
    i ∈ ((cfg2.win 4).blk t).view.set ↔ ∀ a : Fin 2, win2_4.index t a * S5000x64.size a ≤ (i a).val ∧ (i a).val < win2_4.index t a * S5000x64.size a + S5000x64.size a := by
  show i ∈ ((View.whole main_v60).slice (win2_4.rect t)).set ↔ _
  rw [View.set_slice_whole, Rect.mem_set_unit]
  exact Iff.rfl

theorem cover2 (i : S50000x64.Idx) : ∃ t : Fin cfg2.N, (cfg2.win 4).flush t = true ∧ i ∈ ((cfg2.win 4).blk t).view.set := by
  have hi0 : (i 0).val < 50000 := (i 0).isLt
  have hi1 : (i 1).val < 64 := (i 1).isLt
  let t : Fin cfg2.N := ⟨(i 0).val / 5000, by rw [show cfg2.N = 10 from N_2]; omega⟩
  obtain ⟨_, _, _, _, _, _, _, _, e8, e9⟩ := idx2 t
  refine ⟨t, flush2_4 t, ?_⟩
  rw [mem_blk2]
  intro a
  have ht : t.val = (i 0).val / 5000 := rfl
  match a with
  | ⟨0, _⟩ => show win2_4.index t (0 : Fin 2) * 5000 ≤ (i 0).val ∧ (i 0).val < win2_4.index t (0 : Fin 2) * 5000 + 5000; rw [e8, ht]; omega
  | ⟨1, _⟩ => show win2_4.index t (1 : Fin 2) * 64 ≤ (i 1).val ∧ (i 1).val < win2_4.index t (1 : Fin 2) * 64 + 64; rw [e9]; omega

/-- After the user region its result array holds the user result. -/
theorem final2 (c : Dev nD) : (dat2 V c).arrAt 4 cfg2.N = G2 V c :=
  (dat2 V c).arrAt_eq_of_cover 4 (G2 V c) (fun t _ => flushed2 V c t) cover2

end Cert.Hand.Final

end
-- ==== Proof.RefSide.lean ====
/-
  The reference program's three results as the specification's functions.

  The reference's run is read one operation at a time (the generated module `Read`): every stage is a function of
  the program's arguments, and each pointwise stage, broadcast, row sum and matrix product is read at an index from
  its operands at an index. Chaining those readings from the result back to the arguments gives, index by index:

  * the edge message `σ(0 + ∑ₖ X[e,k]·R[e,k]) · (Y[e,j]·R[e,j])` with `σ x = 1 / (1 + e⁻ˣ)` — `Spec.neigh`, since
    `0 + s = s`;
  * the scaled row `v[n] · C[n,j]` — `Spec.weighted`, which writes the scalar on the right (`·` commutes);
  * the user result `A[u,c] · (0 + ∑_f D[f,c] · sm[u,f]) + A[u,c]`, where `sm` is the softmax of the row's four scores
    `∑ₖ Us[u,k]·Lat[f,k]` shifted by their maximum — `A · Spec.comb + A`, again by `0 + s = s` and commutativity.

  No law used here needs a finite operand, so the three equations hold for all values of the arguments. The gathered
  and scattered arrays (`X`, `Y`, `R`, `C`, `A`) and the factor table `D` stay as the stages that produce them.
-/
import proofs.«110572_j67336497267221_1_alg».proof.Proof.Gen.ReferenceIdeal.Read
import proofs.«110572_j67336497267221_1_alg».proof.Proof.Spec

noncomputable section

namespace Cert.Hand.RefSide

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx
open Cert.Hand

/-- The float words of `1.0` and `0.0` as extended reals. -/
theorem one_word : Ideal.ofBits .f32 0x3F800000#32 = (1 : EReal) := Spec.one32_eq
theorem zero_word : Ideal.ofBits .f32 0x00000000#32 = (0 : EReal) := Spec.zero32_eq

/-! ## The weighted neighbour message -/

/-- The attention weight of edge `i 0` is read from row `i 0`: the broadcasts of the attention weight back over the channels and the row sum
    compose to "row `i 0`, column `k`". -/
theorem idx_att (i : S1600000x64.Idx) (k : Fin 64) :
    idx_main_v17 (idx_main_v24 (idx_main_v33 i)) k = ix2 (i 0) k :=
  funext fun a => Fin.ext (by match a with | ⟨0, _⟩ => rfl | ⟨1, _⟩ => rfl)

/-- The reference's edge message is `σ(0 + ∑ₖ X[e,k]·R[e,k]) · (Y[e,j]·R[e,j])` with `σ` spelt `1 / (1 + e⁻ˣ)`:
    the specification's `neigh` once `0 + s = s`. -/
theorem ref_neigh (x0 : (⟨S100000x64, .f32⟩ : BufTy).Contents (Elt Ideal))
    (x3 x4 x5 : (⟨S1600000, .i32⟩ : BufTy).Contents (Elt Ideal))
    (x9 : (⟨S31x64, .f32⟩ : BufTy).Contents (Elt Ideal)) :
    Read.val_main_v34 (F := Ideal) x0 x3 x4 x5 x9
      = Spec.neigh (E := 1600000) (Read.val_main_v15 x0 x3) (Read.val_main_v31 x0 x4) (Read.val_main_v8 x5 x9) := by
  funext i
  rw [val_main_v34_apply, val_main_v33_apply, val_main_v24_apply, val_main_v23_apply, val_main_v22_apply,
    val_main_cst_5_apply, val_main_v21_apply, val_main_v20_apply, val_main_cst_4_apply, val_main_v19_apply,
    val_main_v18_apply, val_main_v17_apply, val_main_cst_apply, val_main_v32_apply]
  simp only [val_main_v16_apply, idx_att, Ideal.ofBits_def, Ideal.mulf_def, Ideal.addf_def, Ideal.hostDivf_def,
    Ideal.hostUnary_exp_def, Ideal.hostNegf_def, Ideal.negf_def, one_word, zero_word, zero_add]
  rfl

/-! ## The weighted rows -/

/-- The row's scalar, broadcast over the channels, is read at the row. -/
theorem idx_scalar (i : S1000000x64.Idx) : idx_main_v61 (idx_main_v69 i) = ix1 (i 0) :=
  funext fun a => Fin.ext (by match a with | ⟨0, _⟩ => rfl)

/-- The reference multiplies the broadcast scalar from the left; the specification writes it on the right. -/
theorem ref_weighted (x0 : (⟨S100000x64, .f32⟩ : BufTy).Contents (Elt Ideal))
    (x7 : (⟨S1000000, .i32⟩ : BufTy).Contents (Elt Ideal))
    (x8 : (⟨S1000000, .f32⟩ : BufTy).Contents (Elt Ideal)) :
    Read.val_main_v70 (F := Ideal) x0 x7 x8 = Spec.weighted (E := 1000000) (Read.val_main_v68 x0 x7) x8 := by
  funext i
  rw [val_main_v70_apply, val_main_v69_apply, val_main_v61_apply, idx_scalar, Ideal.mulf_def]
  exact mul_comm _ _

/-! ## The user result -/

/-- The transposed latent table read where the product reads it: factor `f`, column `k`. -/
theorem idx_lat (i : S50000x4.Idx) (k : Fin 64) : idx_main_v47 (ridx_main_v48 i k) = ix2 (i 1) k :=
  funext fun a => Fin.ext (by match a with | ⟨0, _⟩ => rfl | ⟨1, _⟩ => rfl)

/-- The user table read where the product reads it: row `u`, column `k`. -/
theorem idx_usr (i : S50000x4.Idx) (k : Fin 64) : lidx_main_v48 i k = ix2 (i 0) k :=
  funext fun a => Fin.ext (by match a with | ⟨0, _⟩ => rfl | ⟨1, _⟩ => rfl)

/-- The scores: `v48[u,f] = ∑ₖ Us[u,k]·Lat[f,k]`. -/
theorem score_eq (x1 : (⟨S50000x64, .f32⟩ : BufTy).Contents (Elt Ideal)) (x2 : (⟨S4x64, .f32⟩ : BufTy).Contents (Elt Ideal))
    (u : Fin 50000) (f : Fin 4) :
    Read.val_main_v48 (F := Ideal) x1 x2 (ix2 u f) = Spec.logit (E := 50000) x1 x2 u f := by
  rw [val_main_v48_apply]
  simp only [val_main_v47_apply, idx_lat, idx_usr]
  rfl

/-- Row `u` with the factor coordinate `f` put back. -/
theorem lift_row (h : S50000x4.Reduces [1] S50000) (u : Fin 50000) (f : Fin (S50000x4.size 1)) :
    h.lift (ix1 u) f = ix2 u (⟨f.val, f.isLt⟩ : Fin 4) := by
  funext c; apply Fin.ext
  match c with
  | ⟨0, _⟩ => rfl
  | ⟨1, _⟩ => rfl

/-- The row maximum: the fold of `max` from `-∞` over the row's four scores. -/
theorem rowmax_eq (x1 : (⟨S50000x64, .f32⟩ : BufTy).Contents (Elt Ideal)) (x2 : (⟨S4x64, .f32⟩ : BufTy).Contents (Elt Ideal))
    (u : Fin 50000) :
    Read.val_main_v51 (F := Ideal) x1 x2 (ix1 u) = Spec.rowmax (E := 50000) x1 x2 u := by
  have h : S50000x4.Reduces [1] S50000 := by decide
  rw [val_main_v51_apply, val_main_v50_apply, val_main_cst_13_apply]
  unfold val_main_v49
  rw [Host.reduce_eq_fold_single FloatOps.maximumf _ _ reducesTo_S50000x4_S50000_d1 h h_S_, val_main_cst_12_apply]
  have hf : (Read.val_main_v48 (F := Ideal) x1 x2 ∘ h.lift (ix1 u)) = fun f : Fin 4 => Spec.logit (E := 50000) x1 x2 u f :=
    funext fun f => by
      show Read.val_main_v48 (F := Ideal) x1 x2 (h.lift (ix1 u) f) = _
      rw [lift_row h u f]; exact score_eq x1 x2 u _
  rw [hf]
  rfl

/-- The broadcast of a row's scalar back over the four factors is read at the row. -/
theorem idx_rowmax (u : Fin 50000) (f : Fin 4) : idx_main_v52 (idx_main_v53 (ix2 u f)) = ix1 u :=
  funext fun a => Fin.ext (by match a with | ⟨0, _⟩ => rfl)

/-- The broadcast of a row's sum back over the four factors is read at the row. -/
theorem idx_rowsum (u : Fin 50000) (f : Fin 4) : idx_main_v57 (idx_main_v58 (ix2 u f)) = ix1 u :=
  funext fun a => Fin.ext (by match a with | ⟨0, _⟩ => rfl)

/-- Term `f` of row `u`'s sum is entry (u, f). -/
theorem idx_rowsum_term (u : Fin 50000) (f : Fin 4) : idx_main_v56 (ix1 u) f = ix2 u f :=
  funext fun a => Fin.ext (by match a with | ⟨0, _⟩ => rfl | ⟨1, _⟩ => rfl)

/-- The shifted exponentials: `v55[u,f] = exp(score[u,f] − rowmax[u])`. -/
theorem ex_eq (x1 : (⟨S50000x64, .f32⟩ : BufTy).Contents (Elt Ideal)) (x2 : (⟨S4x64, .f32⟩ : BufTy).Contents (Elt Ideal))
    (u : Fin 50000) (f : Fin 4) :
    Read.val_main_v55 (F := Ideal) x1 x2 (ix2 u f) = Spec.ex (E := 50000) x1 x2 u f := by
  rw [val_main_v55_apply, val_main_v54_apply, val_main_v53_apply, val_main_v52_apply, idx_rowmax u f,
    score_eq, rowmax_eq]
  rfl

/-- The softmax: `v59[u,f] = ex[u,f] / (0 + ∑_f' ex[u,f'])`. -/
theorem sm_eq (x1 : (⟨S50000x64, .f32⟩ : BufTy).Contents (Elt Ideal)) (x2 : (⟨S4x64, .f32⟩ : BufTy).Contents (Elt Ideal))
    (u : Fin 50000) (f : Fin 4) :
    Read.val_main_v59 (F := Ideal) x1 x2 (ix2 u f) = Spec.sm (E := 50000) x1 x2 u f := by
  rw [val_main_v59_apply, val_main_v58_apply, val_main_v57_apply, idx_rowsum u f, val_main_v56_apply,
    val_main_cst_14_apply]
  simp only [idx_rowsum_term, ex_eq, Ideal.ofBits_def, zero_word, zero_add, Ideal.hostDivf_def]
  rfl

/-- The factor table, broadcast over the rows, is read at (factor, channel). -/
theorem idx_table (u : Fin 50000) (c : Fin 64) (f : Fin 4) :
    idx_main_v86 (idx_main_v87 (idx_main_v90 (ix2 u c) f)) = ix2 f c :=
  funext fun a => Fin.ext (by match a with | ⟨0, _⟩ => rfl | ⟨1, _⟩ => rfl)

/-- The softmax, broadcast over the channels, is read at (row, factor). -/
theorem idx_soft (u : Fin 50000) (c : Fin 64) (f : Fin 4) :
    idx_main_v60 (idx_main_v88 (idx_main_v90 (ix2 u c) f)) = ix2 u f :=
  funext fun a => Fin.ext (by match a with | ⟨0, _⟩ => rfl | ⟨1, _⟩ => rfl)

/-- The combination: the reference's `0 + ∑_f D[f,c]·sm[u,f]` is `∑_f sm[u,f]·D[f,c]`. -/
theorem comb_eq (x1 : (⟨S50000x64, .f32⟩ : BufTy).Contents (Elt Ideal)) (x2 : (⟨S4x64, .f32⟩ : BufTy).Contents (Elt Ideal))
    (x10 : (⟨S8x64, .f32⟩ : BufTy).Contents (Elt Ideal)) (x11 : (⟨S4x8, .f32⟩ : BufTy).Contents (Elt Ideal))
    (u : Fin 50000) (c : Fin 64) :
    Read.val_main_v90 (F := Ideal) x1 x2 x10 x11 (ix2 u c)
      = ∑ f : Fin 4, Spec.sm (E := 50000) x1 x2 u f * Read.val_main_v85 (F := Ideal) x10 x11 (ix2 f c) := by
  rw [val_main_v90_apply, val_main_cst_21_apply]
  simp only [val_main_v89_apply, val_main_v87_apply, val_main_v86_apply, val_main_v88_apply, val_main_v60_apply,
    idx_table, idx_soft, sm_eq, Ideal.ofBits_def, zero_word, zero_add, Ideal.mulf_def]
  exact Finset.sum_congr rfl fun f _ => mul_comm _ _

/-- The reference's user result is `A·comb + A`. -/
theorem ref_user (x0 : (⟨S100000x64, .f32⟩ : BufTy).Contents (Elt Ideal))
    (x1 : (⟨S50000x64, .f32⟩ : BufTy).Contents (Elt Ideal)) (x2 : (⟨S4x64, .f32⟩ : BufTy).Contents (Elt Ideal))
    (x6 x7 : (⟨S1000000, .i32⟩ : BufTy).Contents (Elt Ideal)) (x8 : (⟨S1000000, .f32⟩ : BufTy).Contents (Elt Ideal))
    (x10 : (⟨S8x64, .f32⟩ : BufTy).Contents (Elt Ideal)) (x11 : (⟨S4x8, .f32⟩ : BufTy).Contents (Elt Ideal)) :
    Read.val_main_v92 (F := Ideal) x0 x1 x2 x6 x7 x8 x10 x11
      = fun i => Read.val_main_v73 x0 x6 x7 x8 i * Spec.comb (E := 50000) x1 x2 (Read.val_main_v85 x10 x11) i
          + Read.val_main_v73 x0 x6 x7 x8 i := by
  funext i
  obtain ⟨u, c, rfl⟩ : ∃ (u : Fin 50000) (c : Fin 64), i = ix2 u c := ⟨i 0, i 1, eq_ix2 i⟩
  rw [val_main_v92_apply, val_main_v91_apply, comb_eq]
  rfl

end Cert.Hand.RefSide

end
-- ==== Proof.Walk.lean ====
/-
  The two results of the idealized kernel program, read back through its six segments to the launch memory.

  The buffer contents after the last segment are a fold: host operations rewrite their result buffers, a kernel
  region rewrites its result array (`Final`), everything else is carried along. Reading the fold at the entity
  result gives the quotient of the scatter-sum of the edge messages by the clamped edge counts, with the messages
  those of the reference (`RefSide.ref_neigh`): the reference's own term. Reading it at the user result gives
  `Spec.userOut` of the user rows, the latent table, the reference's factor table and the reference's aggregate
  (the scatter-sum of the weighted gathered rows, `RefSide.ref_weighted`).
-/
import proofs.«110572_j67336497267221_1_alg».proof.Proof.Gen.KernelIdeal.Frame
import proofs.«110572_j67336497267221_1_alg».proof.Proof.Gen.ReferenceIdeal.Read
import proofs.«110572_j67336497267221_1_alg».proof.Proof.Final
import proofs.«110572_j67336497267221_1_alg».proof.Proof.RefSide
import Idealize.ShloMosaic.Lib.StableHlo.Run

set_option maxRecDepth 16384

noncomputable section

namespace Cert.Hand.Walk

open Cert.KernelIdeal Cert.KernelIdeal.Gen Cert.Hand
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## The arguments are carried through every segment -/

theorem p1_0 (c : Dev nD) : W1 m ρ c (Proc.devRef .tc main_arg0) = (m ((c : Thread nD τ).loc main_arg0)) := by
  show StableHlo.after hostOps0 (W0 m ρ c) (Proc.devRef .tc main_arg0) = _
  after_results
  all_goals rfl
theorem p2_0 (c : Dev nD) : W2 m ρ c (Proc.devRef .tc main_arg0) = (m ((c : Thread nD τ).loc main_arg0)) :=
  (W2_of_ne m ρ c main_arg0 (by decide)).trans (p1_0 m ρ c)
theorem p1_1 (c : Dev nD) : W1 m ρ c (Proc.devRef .tc main_arg1) = (m ((c : Thread nD τ).loc main_arg1)) := by
  show StableHlo.after hostOps0 (W0 m ρ c) (Proc.devRef .tc main_arg1) = _
  after_results
  all_goals rfl
theorem p2_1 (c : Dev nD) : W2 m ρ c (Proc.devRef .tc main_arg1) = (m ((c : Thread nD τ).loc main_arg1)) :=
  (W2_of_ne m ρ c main_arg1 (by decide)).trans (p1_1 m ρ c)
theorem p1_2 (c : Dev nD) : W1 m ρ c (Proc.devRef .tc main_arg2) = (m ((c : Thread nD τ).loc main_arg2)) := by
  show StableHlo.after hostOps0 (W0 m ρ c) (Proc.devRef .tc main_arg2) = _
  after_results
  all_goals rfl
theorem p2_2 (c : Dev nD) : W2 m ρ c (Proc.devRef .tc main_arg2) = (m ((c : Thread nD τ).loc main_arg2)) :=
  (W2_of_ne m ρ c main_arg2 (by decide)).trans (p1_2 m ρ c)
theorem p1_3 (c : Dev nD) : W1 m ρ c (Proc.devRef .tc main_arg3) = (m ((c : Thread nD τ).loc main_arg3)) := by
  show StableHlo.after hostOps0 (W0 m ρ c) (Proc.devRef .tc main_arg3) = _
  after_results
  all_goals rfl
theorem p2_3 (c : Dev nD) : W2 m ρ c (Proc.devRef .tc main_arg3) = (m ((c : Thread nD τ).loc main_arg3)) :=
  (W2_of_ne m ρ c main_arg3 (by decide)).trans (p1_3 m ρ c)
theorem p1_6 (c : Dev nD) : W1 m ρ c (Proc.devRef .tc main_arg6) = (m ((c : Thread nD τ).loc main_arg6)) := by
  show StableHlo.after hostOps0 (W0 m ρ c) (Proc.devRef .tc main_arg6) = _
  after_results
  all_goals rfl
theorem p2_6 (c : Dev nD) : W2 m ρ c (Proc.devRef .tc main_arg6) = (m ((c : Thread nD τ).loc main_arg6)) :=
  (W2_of_ne m ρ c main_arg6 (by decide)).trans (p1_6 m ρ c)
theorem p1_7 (c : Dev nD) : W1 m ρ c (Proc.devRef .tc main_arg7) = (m ((c : Thread nD τ).loc main_arg7)) := by
  show StableHlo.after hostOps0 (W0 m ρ c) (Proc.devRef .tc main_arg7) = _
  after_results
  all_goals rfl
theorem p2_7 (c : Dev nD) : W2 m ρ c (Proc.devRef .tc main_arg7) = (m ((c : Thread nD τ).loc main_arg7)) :=
  (W2_of_ne m ρ c main_arg7 (by decide)).trans (p1_7 m ρ c)
theorem p1_8 (c : Dev nD) : W1 m ρ c (Proc.devRef .tc main_arg8) = (m ((c : Thread nD τ).loc main_arg8)) := by
  show StableHlo.after hostOps0 (W0 m ρ c) (Proc.devRef .tc main_arg8) = _
  after_results
  all_goals rfl
theorem p2_8 (c : Dev nD) : W2 m ρ c (Proc.devRef .tc main_arg8) = (m ((c : Thread nD τ).loc main_arg8)) :=
  (W2_of_ne m ρ c main_arg8 (by decide)).trans (p1_8 m ρ c)
theorem p1_10 (c : Dev nD) : W1 m ρ c (Proc.devRef .tc main_arg10) = (m ((c : Thread nD τ).loc main_arg10)) := by
  show StableHlo.after hostOps0 (W0 m ρ c) (Proc.devRef .tc main_arg10) = _
  after_results
  all_goals rfl
theorem p2_10 (c : Dev nD) : W2 m ρ c (Proc.devRef .tc main_arg10) = (m ((c : Thread nD τ).loc main_arg10)) :=
  (W2_of_ne m ρ c main_arg10 (by decide)).trans (p1_10 m ρ c)
theorem p1_11 (c : Dev nD) : W1 m ρ c (Proc.devRef .tc main_arg11) = (m ((c : Thread nD τ).loc main_arg11)) := by
  show StableHlo.after hostOps0 (W0 m ρ c) (Proc.devRef .tc main_arg11) = _
  after_results
  all_goals rfl
theorem p2_11 (c : Dev nD) : W2 m ρ c (Proc.devRef .tc main_arg11) = (m ((c : Thread nD τ).loc main_arg11)) :=
  (W2_of_ne m ρ c main_arg11 (by decide)).trans (p1_11 m ρ c)
theorem p3_1 (c : Dev nD) : W3 m ρ c (Proc.devRef .tc main_arg1) = (m ((c : Thread nD τ).loc main_arg1)) := by
  show StableHlo.after hostOps1 (W2 m ρ c) (Proc.devRef .tc main_arg1) = _
  after_results
  exact p2_1 m ρ c
theorem p4_1 (c : Dev nD) : W4 m ρ c (Proc.devRef .tc main_arg1) = (m ((c : Thread nD τ).loc main_arg1)) :=
  (W4_of_ne m ρ c main_arg1 (by decide)).trans (p3_1 m ρ c)
theorem p3_2 (c : Dev nD) : W3 m ρ c (Proc.devRef .tc main_arg2) = (m ((c : Thread nD τ).loc main_arg2)) := by
  show StableHlo.after hostOps1 (W2 m ρ c) (Proc.devRef .tc main_arg2) = _
  after_results
  exact p2_2 m ρ c
theorem p4_2 (c : Dev nD) : W4 m ρ c (Proc.devRef .tc main_arg2) = (m ((c : Thread nD τ).loc main_arg2)) :=
  (W4_of_ne m ρ c main_arg2 (by decide)).trans (p3_2 m ρ c)
theorem p3_6 (c : Dev nD) : W3 m ρ c (Proc.devRef .tc main_arg6) = (m ((c : Thread nD τ).loc main_arg6)) := by
  show StableHlo.after hostOps1 (W2 m ρ c) (Proc.devRef .tc main_arg6) = _
  after_results
  exact p2_6 m ρ c
theorem p4_6 (c : Dev nD) : W4 m ρ c (Proc.devRef .tc main_arg6) = (m ((c : Thread nD τ).loc main_arg6)) :=
  (W4_of_ne m ρ c main_arg6 (by decide)).trans (p3_6 m ρ c)
theorem p3_10 (c : Dev nD) : W3 m ρ c (Proc.devRef .tc main_arg10) = (m ((c : Thread nD τ).loc main_arg10)) := by
  show StableHlo.after hostOps1 (W2 m ρ c) (Proc.devRef .tc main_arg10) = _
  after_results
  exact p2_10 m ρ c
theorem p4_10 (c : Dev nD) : W4 m ρ c (Proc.devRef .tc main_arg10) = (m ((c : Thread nD τ).loc main_arg10)) :=
  (W4_of_ne m ρ c main_arg10 (by decide)).trans (p3_10 m ρ c)
theorem p3_11 (c : Dev nD) : W3 m ρ c (Proc.devRef .tc main_arg11) = (m ((c : Thread nD τ).loc main_arg11)) := by
  show StableHlo.after hostOps1 (W2 m ρ c) (Proc.devRef .tc main_arg11) = _
  after_results
  exact p2_11 m ρ c
theorem p4_11 (c : Dev nD) : W4 m ρ c (Proc.devRef .tc main_arg11) = (m ((c : Thread nD τ).loc main_arg11)) :=
  (W4_of_ne m ρ c main_arg11 (by decide)).trans (p3_11 m ρ c)
theorem p5_1 (c : Dev nD) : W5 m ρ c (Proc.devRef .tc main_arg1) = (m ((c : Thread nD τ).loc main_arg1)) := by
  show StableHlo.after hostOps2 (W4 m ρ c) (Proc.devRef .tc main_arg1) = _
  after_results
  exact p4_1 m ρ c
theorem p5_2 (c : Dev nD) : W5 m ρ c (Proc.devRef .tc main_arg2) = (m ((c : Thread nD τ).loc main_arg2)) := by
  show StableHlo.after hostOps2 (W4 m ρ c) (Proc.devRef .tc main_arg2) = _
  after_results
  exact p4_2 m ρ c

/-! ## What the host stretches write -/

set_option maxHeartbeats 4000000 in
theorem v1_v6 (c : Dev nD) : W1 m ρ c (Proc.devRef .tc main_v6) = Cert.ReferenceIdeal.Read.val_main_v15 (F := Ideal) (m ((c : Thread nD τ).loc main_arg0)) (m ((c : Thread nD τ).loc main_arg3)) := by
  show StableHlo.after hostOps0 (W0 m ρ c) (Proc.devRef .tc main_v6) = _
  after_results_simp
  all_goals rfl

set_option maxHeartbeats 4000000 in
theorem v1_v13 (c : Dev nD) : W1 m ρ c (Proc.devRef .tc main_v13) = Cert.ReferenceIdeal.Read.val_main_v31 (F := Ideal) (m ((c : Thread nD τ).loc main_arg0)) (m ((c : Thread nD τ).loc main_arg4)) := by
  show StableHlo.after hostOps0 (W0 m ρ c) (Proc.devRef .tc main_v13) = _
  after_results_simp
  all_goals rfl

set_option maxHeartbeats 4000000 in
theorem v1_v22 (c : Dev nD) : W1 m ρ c (Proc.devRef .tc main_v22) = Cert.ReferenceIdeal.Read.val_main_v8 (F := Ideal) (m ((c : Thread nD τ).loc main_arg5)) (m ((c : Thread nD τ).loc main_arg9)) := by
  show StableHlo.after hostOps0 (W0 m ρ c) (Proc.devRef .tc main_v22) = _
  after_results_simp
  all_goals rfl

/-- The edge region's result array holds the reference's messages. -/
theorem e23 (c : Dev nD) : W2 m ρ c (Proc.devRef .tc main_v23)
    = Cert.ReferenceIdeal.Read.val_main_v34 (F := Ideal) (m ((c : Thread nD τ).loc main_arg0)) (m ((c : Thread nD τ).loc main_arg3)) (m ((c : Thread nD τ).loc main_arg4)) (m ((c : Thread nD τ).loc main_arg5)) (m ((c : Thread nD τ).loc main_arg9)) := by
  rw [RefSide.ref_neigh]
  refine (W2_arr m ρ c 3).trans ((Final.final0 (V1 m ρ) c).trans ?_)
  show Spec.neigh (W1 m ρ c (Proc.devRef .tc main_v6)) (W1 m ρ c (Proc.devRef .tc main_v13)) (W1 m ρ c (Proc.devRef .tc main_v22)) = _
  rw [v1_v6, v1_v13, v1_v22]

set_option maxHeartbeats 4000000 in
theorem v3_v35 (c : Dev nD) : W3 m ρ c (Proc.devRef .tc main_v35)
    = Cert.ReferenceIdeal.Read.val_main_v46 (F := Ideal) (m ((c : Thread nD τ).loc main_arg0)) (m ((c : Thread nD τ).loc main_arg3)) (m ((c : Thread nD τ).loc main_arg4)) (m ((c : Thread nD τ).loc main_arg5)) (m ((c : Thread nD τ).loc main_arg9)) := by
  show StableHlo.after hostOps1 (W2 m ρ c) (Proc.devRef .tc main_v35) = _
  after_results_simp
  rw [p2_3 m ρ c, e23 m ρ c]
  rfl

/-- THE ENTITY RESULT is the reference's term of the launch arguments. -/
theorem walk35 (c : Dev nD) : W6 m ρ c (Proc.devRef .tc main_v35)
    = Cert.ReferenceIdeal.Read.val_main_v46 (F := Ideal) (m ((c : Thread nD τ).loc main_arg0)) (m ((c : Thread nD τ).loc main_arg3)) (m ((c : Thread nD τ).loc main_arg4)) (m ((c : Thread nD τ).loc main_arg5)) (m ((c : Thread nD τ).loc main_arg9)) :=
  calc W6 m ρ c (Proc.devRef .tc main_v35)
    _ = W5 m ρ c (Proc.devRef .tc main_v35) := W6_of_ne m ρ c main_v35 (by decide)
    _ = W4 m ρ c (Proc.devRef .tc main_v35) := by
          show StableHlo.after hostOps2 (W4 m ρ c) (Proc.devRef .tc main_v35) = _
          after_results
    _ = W3 m ρ c (Proc.devRef .tc main_v35) := W4_of_ne m ρ c main_v35 (by decide)
    _ = _ := v3_v35 m ρ c

set_option maxHeartbeats 4000000 in
theorem v3_v42 (c : Dev nD) : W3 m ρ c (Proc.devRef .tc main_v42) = Cert.ReferenceIdeal.Read.val_main_v68 (F := Ideal) (m ((c : Thread nD τ).loc main_arg0)) (m ((c : Thread nD τ).loc main_arg7)) := by
  show StableHlo.after hostOps1 (W2 m ρ c) (Proc.devRef .tc main_v42) = _
  after_results_simp
  rw [p2_0 m ρ c, p2_7 m ρ c]
  rfl

set_option maxHeartbeats 4000000 in
theorem v3_v43 (c : Dev nD) : W3 m ρ c (Proc.devRef .tc main_v43)
    = shapeCast S1000000x1 ((m ((c : Thread nD τ).loc main_arg8)) : FVec Ideal S1000000 .f32) shapeCasts_S1000000_S1000000x1 := by
  show StableHlo.after hostOps1 (W2 m ρ c) (Proc.devRef .tc main_v43) = _
  after_results_simp
  rw [p2_8 m ρ c]
  rfl

/-- A one-column array that is a vector cast to a column: the column-weighted rows are the vector-weighted rows. -/
theorem weightedCol_cast {N : Nat} (C : (⟨2, ![N, 64]⟩ : Shape).Idx → EReal) (v : (⟨1, ![N]⟩ : Shape).Idx → EReal)
    (h : (⟨1, ![N]⟩ : Shape).ShapeCasts ⟨2, ![N, 1]⟩) :
    Pay.weightedCol C (shapeCast ⟨2, ![N, 1]⟩ v h) = Spec.weighted C v := by
  funext i
  obtain ⟨p, q, rfl⟩ : ∃ (p : Fin N) (q : Fin 64), i = ix2 p q := ⟨i 0, i 1, eq_ix2 i⟩
  show C (ix2 p q) * shapeCast ⟨2, ![N, 1]⟩ v h (ix2 p (0 : Fin 1)) = C (ix2 p q) * v (ix1 p)
  rw [Lay.shapeCast_a_a1_apply _ _ p 0]

/-- The weighting region's result array holds the reference's weighted rows. -/
theorem e44 (c : Dev nD) : W4 m ρ c (Proc.devRef .tc main_v44)
    = Cert.ReferenceIdeal.Read.val_main_v70 (F := Ideal) (m ((c : Thread nD τ).loc main_arg0)) (m ((c : Thread nD τ).loc main_arg7)) (m ((c : Thread nD τ).loc main_arg8)) := by
  rw [RefSide.ref_weighted]
  refine (W4_arr m ρ c 2).trans ((Final.final1 (V3 m ρ) c).trans ?_)
  show Pay.weightedCol (W3 m ρ c (Proc.devRef .tc main_v42)) (W3 m ρ c (Proc.devRef .tc main_v43)) = _
  rw [v3_v42, v3_v43]
  exact weightedCol_cast _ _ _

set_option maxHeartbeats 4000000 in
theorem v5_v47 (c : Dev nD) : W5 m ρ c (Proc.devRef .tc main_v47)
    = Cert.ReferenceIdeal.Read.val_main_v73 (F := Ideal) (m ((c : Thread nD τ).loc main_arg0)) (m ((c : Thread nD τ).loc main_arg6)) (m ((c : Thread nD τ).loc main_arg7)) (m ((c : Thread nD τ).loc main_arg8)) := by
  show StableHlo.after hostOps2 (W4 m ρ c) (Proc.devRef .tc main_v47) = _
  after_results_simp
  rw [p4_6 m ρ c, e44 m ρ c]
  rfl

set_option maxHeartbeats 4000000 in
theorem v5_v59 (c : Dev nD) : W5 m ρ c (Proc.devRef .tc main_v59) = Cert.ReferenceIdeal.Read.val_main_v85 (F := Ideal) (m ((c : Thread nD τ).loc main_arg10)) (m ((c : Thread nD τ).loc main_arg11)) := by
  show StableHlo.after hostOps2 (W4 m ρ c) (Proc.devRef .tc main_v59) = _
  after_results_simp
  rw [p4_10 m ρ c, p4_11 m ρ c]
  rfl

/-- THE USER RESULT is `Spec.userOut` of the launch arguments, the reference's factor table and its aggregate. -/
theorem walk60 (c : Dev nD) : W6 m ρ c (Proc.devRef .tc main_v60)
    = Spec.userOut (E := 50000) (m ((c : Thread nD τ).loc main_arg1)) (m ((c : Thread nD τ).loc main_arg2)) (Cert.ReferenceIdeal.Read.val_main_v85 (F := Ideal) (m ((c : Thread nD τ).loc main_arg10)) (m ((c : Thread nD τ).loc main_arg11)))
        (Cert.ReferenceIdeal.Read.val_main_v73 (F := Ideal) (m ((c : Thread nD τ).loc main_arg0)) (m ((c : Thread nD τ).loc main_arg6)) (m ((c : Thread nD τ).loc main_arg7)) (m ((c : Thread nD τ).loc main_arg8))) := by
  refine (W6_arr m ρ c 4).trans ((Final.final2 (V5 m ρ) c).trans ?_)
  show Spec.userOut (W5 m ρ c (Proc.devRef .tc main_arg1)) (W5 m ρ c (Proc.devRef .tc main_arg2)) (W5 m ρ c (Proc.devRef .tc main_v59)) (W5 m ρ c (Proc.devRef .tc main_v47)) = _
  rw [p5_1, p5_2, v5_v59, v5_v47]

end Cert.Hand.Walk

end
-- ==== Proof.Finite.lean ====
/-
  Finiteness of the inputs, and its propagation through the two shape operations that move data.
  The precondition is a conjunction of seven "all entries have absolute value below +∞" tests, one
  per floating-point argument. Read back at the two arguments used here, each test says that every
  entry is a real number (neither infinity). A gather only copies entries of its operand, and an
  accumulating scatter adds finitely many update entries to an operand entry, so both keep the
  property "every entry is a real".
-/
import proofs.«110572_j67336497267221_1_alg».proof.Defs
import proofs.«110572_j67336497267221_1_alg».proof.Proof.Gen.KernelIdeal
import proofs.«110572_j67336497267221_1_alg».proof.Proof.Gen.Pre_finite_inputs
import Idealize.ShloMosaic.Lib.ReduceAll
import Idealize.ShloMosaic.Lib.ValueIdx
import Idealize.ShloMosaic.PureOps.Ideal.Laws

noncomputable section

namespace Cert.Hand.Finite

open Idealize.ShloMosaic Idealize.SL.Sem

/-- The rank-0 shape has exactly one index. -/
instance : Subsingleton Cert.Pre_finite_inputs.S_.Idx := ⟨fun a b => funext fun d => d.elim0⟩

/-- A pointwise `and` of two one-bit arrays is 1 at an index exactly when both are. -/
theorem andi_apply_eq_one {s : Shape} (x y : IVec s 1) (j : s.Idx) :
    andi x y j = 1#1 ↔ x j = 1#1 ∧ y j = 1#1 := IntOp.andi_eq_one

/-- The pattern `0x7F800000` denotes +∞. -/
theorem ofBits_inf : Ideal.ofBits .f32 0x7F800000#32 = (⊤ : EReal) := by simp [Ideal.ofBits, Ideal.ieee]

/-- An extended real `x` with `|x| < +∞` (the test the precondition makes, `|x| = max x (-x)`) is a real:
    at `⊥` and at `⊤` the absolute value is `⊤`, which is not below `⊤`. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- One "every entry has absolute value below +∞" test of the precondition, read back at an entry. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x) (broadcastInDim s ![] hb (constant Cert.Pre_finite_inputs.S_ .f32 0x7F800000#32)))
          (constantI Cert.Pre_finite_inputs.S_ 1 1#1) hr hu ValueIdx.ix0 = 1#1) (i : s.Idx) :
    ∃ r : ℝ, x i = (r : EReal) :=
  real_of_abs_lt_inf (x i) (Host.reduce_andi_all _ _ hr hu _ e i)

/-- The seven tests of the precondition, separated. -/
theorem pre_split (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i : Cert.KernelIdeal.S100000x64.Idx, ∃ r : ℝ,
        (m ((c.tc : Thread Cert.KernelIdeal.nD Cert.KernelIdeal.τ).loc Cert.KernelIdeal.main_arg0) :
          FVec Ideal Cert.KernelIdeal.S100000x64 .f32) i = (r : EReal))
    ∧ (∀ i : Cert.KernelIdeal.S1000000.Idx, ∃ r : ℝ,
        (m ((c.tc : Thread Cert.KernelIdeal.nD Cert.KernelIdeal.τ).loc Cert.KernelIdeal.main_arg8) :
          FVec Ideal Cert.KernelIdeal.S1000000 .f32) i = (r : EReal)) := by
  have h := congrFun (hpre c) ValueIdx.ix0
  dsimp only [Cert.Pre_finite_inputs.fn, Cert.Pre_finite_inputs.fn_part1] at h
  simp only [andi_apply_eq_one] at h
  obtain ⟨⟨⟨⟨⟨⟨h0, _⟩, _⟩, h8⟩, _⟩, _⟩, _⟩ := h
  exact ⟨real_of_all _ _ _ _ h0, real_of_all _ _ _ _ h8⟩

/-- Every entry of the argument `main_arg0` is a real. -/
theorem arg0_real (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S100000x64.Idx) :
    ∃ r : ℝ, (m ((c.tc : Thread Cert.KernelIdeal.nD Cert.KernelIdeal.τ).loc Cert.KernelIdeal.main_arg0) :
      FVec Ideal Cert.KernelIdeal.S100000x64 .f32) i = (r : EReal) :=
  (pre_split m hpre c).1 i

/-- Every entry of the argument `main_arg8` is a real. -/
theorem arg8_real (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S1000000.Idx) :
    ∃ r : ℝ, (m ((c.tc : Thread Cert.KernelIdeal.nD Cert.KernelIdeal.τ).loc Cert.KernelIdeal.main_arg8) :
      FVec Ideal Cert.KernelIdeal.S1000000 .f32) i = (r : EReal) :=
  (pre_split m hpre c).2 i

/-- A gather copies: each output entry is the operand's entry at some index, so reals stay reals. -/
theorem gather_real [Cert.KernelIdeal.Facts₀] {w : Nat} (x : FVec Ideal Cert.KernelIdeal.S100000x64 .f32)
    (idx : IVec Cert.KernelIdeal.S1000000x1 w) (hx : ∀ i, ∃ r : ℝ, x i = (r : EReal))
    (j : Cert.KernelIdeal.S1000000x64.Idx) :
    ∃ r : ℝ, Host.gather Cert.KernelIdeal.gather_S100000x64_S1000000x1_S1000000x64_1_0_n_n_0_1_164 x idx j = (r : EReal) :=
  hx _

/-- A finite sum of (coerced) reals is the (coerced) real sum. -/
theorem sum_coe {ι : Type} (t : Finset ι) (f : ι → EReal) (g : ι → ℝ) (h : ∀ j, f j = (g j : EReal)) :
    ∑ j ∈ t, f j = ((∑ j ∈ t, g j : ℝ) : EReal) := by
  classical
  induction t using Finset.induction_on with
  | empty => simp
  | insert a t ha ih => rw [Finset.sum_insert ha, Finset.sum_insert ha, ih, h a, EReal.coe_add]

/-- An accumulating scatter adds to each operand entry the finitely many update entries that land on
    it: if the operand and the updates are real everywhere, so is the result. -/
theorem scatterAdd_real {φ : FTy} {s si u : Shape} {w : Nat} (d : ScatterDims s si u) (x : FVec Ideal s φ)
    (idx : IVec si w) (upd : FVec Ideal u φ) (hx : ∀ i, ∃ r : ℝ, x i = (r : EReal))
    (hu : ∀ j, ∃ r : ℝ, upd j = (r : EReal)) (i : s.Idx) :
    ∃ r : ℝ, Host.scatterAdd (F := Ideal) d x idx upd i = (r : EReal) := by
  choose fx hfx using hx
  choose fu hfu using hu
  unfold Host.scatterAdd
  rw [Ideal.hostScatterAdd_def]
  unfold Ideal.hostScatterAdd
  rw [hfx i, sum_coe _ _ fu hfu, ← EReal.coe_add]
  exact ⟨_, rfl⟩

end Cert.Hand.Finite

end
-- ==== Proof.Bridge.lean ====
/-
  The one place where the precondition is used.

  The user kernel multiplies the aggregate by `comb + 1`; the reference multiplies it by `comb` and adds it back.
  On the extended reals `x·(a + 1) = x·a + x` needs `x` finite. The aggregate is a scatter-sum, from zeros, of
  products of an entry of `mat_val` with a gathered entry of `entity_emb`; both arrays hold reals only under
  the precondition, so every entry of the aggregate is a real.
-/
import proofs.«110572_j67336497267221_1_alg».proof.Proof.Walk
import proofs.«110572_j67336497267221_1_alg».proof.Proof.Finite

set_option maxRecDepth 16384

noncomputable section

namespace Cert.Hand.Bridge

open Cert.KernelIdeal Cert.KernelIdeal.Gen Cert.Hand
open Idealize.ShloMosaic Idealize.ShloMosaic.TcCoe Idealize.ShloMosaic.ValueIdx Idealize.SL.Sem

variable (m : (ℓ : Loc nD τ sig) → Buf (Elt Ideal) ℓ) (ρ : Dev nD → PrngReg)

theorem mul_real {a b : EReal} (ha : ∃ r : ℝ, a = (r : EReal)) (hb : ∃ r : ℝ, b = (r : EReal)) : ∃ r : ℝ, a * b = (r : EReal) := by
  obtain ⟨r1, rfl⟩ := ha
  obtain ⟨r2, rfl⟩ := hb
  exact ⟨r1 * r2, (EReal.coe_mul r1 r2).symm⟩

/-- Under the precondition every entry of the aggregate is a real. -/
theorem agg_real (hpre : Cert.Pre_KernelIdeal m) (c : Dev nD) (i : S50000x64.Idx) :
    ∃ r : ℝ, Cert.ReferenceIdeal.Read.val_main_v73 (F := Ideal) (m ((c : Thread nD τ).loc main_arg0)) (m ((c : Thread nD τ).loc main_arg6)) (m ((c : Thread nD τ).loc main_arg7)) (m ((c : Thread nD τ).loc main_arg8)) i = (r : EReal) := by
  have hx : ∀ i, ∃ r : ℝ, Cert.ReferenceIdeal.Read.val_main_v71 (F := Ideal) i = (r : EReal) := fun i => ⟨0, by
    show Ideal.ofBits .f32 0x00000000#32 = _
    rw [Ideal.ofBits_zero_f32]; rfl⟩
  have hu : ∀ j, ∃ r : ℝ, Cert.ReferenceIdeal.Read.val_main_v70 (F := Ideal) (m ((c : Thread nD τ).loc main_arg0)) (m ((c : Thread nD τ).loc main_arg7)) (m ((c : Thread nD τ).loc main_arg8)) j = (r : EReal) := fun j => by
    rw [RefSide.ref_weighted]
    exact mul_real
      (Finite.gather_real (m ((c : Thread nD τ).loc main_arg0)) (Cert.ReferenceIdeal.Read.val_main_v67 (F := Ideal) (m ((c : Thread nD τ).loc main_arg7))) (fun i => Finite.arg0_real m hpre c i) j)
      (Finite.arg8_real m hpre c _)
  exact Finite.scatterAdd_real _ _ _ _ hx hu i

/-- THE USER RESULT is the reference's term of the launch arguments. -/
theorem user_eq (hpre : Cert.Pre_KernelIdeal m) (c : Dev nD) : W6 m ρ c (Proc.devRef .tc main_v60)
    = Cert.ReferenceIdeal.Read.val_main_v92 (F := Ideal) (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg8)) (m ((c : Thread nD τ).loc main_arg10)) (m ((c : Thread nD τ).loc main_arg11)) := by
  rw [Walk.walk60, RefSide.ref_user]
  funext i
  unfold Spec.userOut
  beta_reduce
  obtain ⟨r, hr⟩ := agg_real m hpre c i
  rw [hr, Spec.one32_eq, Spec.real_mul_add_one]

end Cert.Hand.Bridge

end
-- ==== Proof.lean ====
/-
  The kernel program and the reference compute the same two arrays over the extended reals.

  The kernel program gathers three operand arrays per edge, runs a pipelined kernel that forms, for every edge, the
  gate `σ(∑ₖ h·r)` times `t·r`, scatter-adds the messages by head entity and divides by the clamped edge counts;
  it gathers and weights the sparse matrix's rows in a second kernel, scatter-adds them by user, and in a third
  kernel multiplies the aggregate by `softmax(U·Latᵀ)·D + 1`. The reference spells the gate as
  `1 / (1 + e⁻ˣ)`, weights with the factors in the other order, and forms `A·(softmax·D) + A`.

  * The entity result: both programs apply the same scatter-sum and the same quotient to the edge messages, and
    the messages agree entry by entry (`RefSide.ref_neigh`, `Pay.pay0_eq`): no precondition is needed.
  * The user result: `A·(comb + 1) = A·comb + A` holds because every entry of the aggregate `A` is a real
    (`Bridge.agg_real`, from the finiteness of `entity_emb` and `mat_val`; `Spec.real_mul_add_one`).
  * The kernel program's run: its three regions and four host stretches fold the launch memory into the final
    contents (`KRun.run_out`), which `Walk` reads at the two results; each region's result array is the
    row-by-row function of its operand arrays (`Final`).
  * The frames are the generated ones; the reference's is its generated run with the results dropped. The
    idealization rewrote nothing, so `preserves` is `True`.
-/
import proofs.«110572_j67336497267221_1_alg».proof.Defs
import proofs.«110572_j67336497267221_1_alg».proof.Proof.Gen.Kernel
import proofs.«110572_j67336497267221_1_alg».proof.Proof.Gen.Kernel.Skeleton
import proofs.«110572_j67336497267221_1_alg».proof.Proof.Gen.Kernel.Launch
import proofs.«110572_j67336497267221_1_alg».proof.Proof.Gen.Kernel.Points
import proofs.«110572_j67336497267221_1_alg».proof.Proof.Gen.Kernel.Frame
import proofs.«110572_j67336497267221_1_alg».proof.Proof.Gen.KernelIdeal
import proofs.«110572_j67336497267221_1_alg».proof.Proof.Gen.KernelIdeal.Skeleton
import proofs.«110572_j67336497267221_1_alg».proof.Proof.Gen.KernelIdeal.Launch
import proofs.«110572_j67336497267221_1_alg».proof.Proof.Gen.KernelIdeal.Points
import proofs.«110572_j67336497267221_1_alg».proof.Proof.Gen.KernelIdeal.Frame
import proofs.«110572_j67336497267221_1_alg».proof.Proof.Gen.ReferenceIdeal
import proofs.«110572_j67336497267221_1_alg».proof.Proof.Gen.Pre_finite_inputs
import proofs.«110572_j67336497267221_1_alg».proof.Proof.Gen.ReferenceIdeal.Run
import proofs.«110572_j67336497267221_1_alg».proof.Proof.Gen.ReferenceIdeal.Read
import proofs.«110572_j67336497267221_1_alg».proof.Proof.KRun
import proofs.«110572_j67336497267221_1_alg».proof.Proof.Walk
import proofs.«110572_j67336497267221_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- Both programs end with equal results: the witnesses are the kernel program's final contents at its two result
    buffers, which are the reference's two terms of the arguments. -/
theorem algebraic : Cert.algebraic_KernelIdeal_ReferenceIdeal := by
  intro m ρ m' ρ' hpre hagree
  refine ⟨fun c => Cert.KernelIdeal.Gen.W6 m ρ c (Proc.devRef .tc Cert.KernelIdeal.main_v35),
    fun c => Cert.KernelIdeal.Gen.W6 m ρ c (Proc.devRef .tc Cert.KernelIdeal.main_v60),
    Cert.Hand.KRun.run_out (F := Ideal) m ρ, ?_⟩
  refine (θ_run Cert.ReferenceIdeal.defs _ _).mono (fun _ h c => ?_) (Cert.ReferenceIdeal.Value.run (F := Ideal) m' ρ')
  obtain ⟨h46, h92, hrest⟩ := h c
  obtain ⟨g0, g1, g2, g3, g4, g5, g6, g7, g8, g9, g10, g11⟩ := hagree c
  refine ⟨h46.trans ?_, h92.trans ?_, hrest⟩
  · refine (Cert.ReferenceIdeal.Read.val_main_v46_eq _ _ _ _ _).trans ?_
    rw [g0, g3, g4, g5, g9]
    exact (Cert.Hand.Walk.walk35 m ρ c).symm
  · refine (Cert.ReferenceIdeal.Read.val_main_v92_eq m' c).trans ?_
    rw [g0, g1, g2, g6, g7, g8, g10, g11]
    exact (Cert.Hand.Bridge.user_eq m ρ hpre c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
